-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2x1000000 : Shape := ⟨2, ![2, 1000000]⟩
abbrev S4x1000000 : Shape := ⟨2, ![4, 1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4x1000000 : S_.BroadcastsInDim S4x1000000 (![] : Fin 0 → Fin S4x1000000.rank)
  reducesTo_S4x1000000_S_d0_1 : S4x1000000.ReducesTo [0, 1] S_

variable [Facts]

def fn {F : FTy → Type} [FloatOps F] (main_arg0 : FVec F S100000x64 .f32) (main_arg1 : FVec F S50000x64 .f32) (main_arg2 : IVec S2x1000000 32) (main_arg3 : FVec F S4x1000000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4x1000000 .f32 := Host.absf main_arg3
  let main_cst_2 : FVec F S_ .f32 := constant S_ .f32 0x7F800000#32
  let main_v10 : FVec F S4x1000000 .f32 := broadcastInDim S4x1000000 ![] bcast_S_S4x1000000 main_cst_2
  let main_v11 : IVec S4x1000000 1 := cmpf .olt main_v9 main_v10
  let main_c_3 : IVec S_ 1 := constantI S_ 1 1#1
  let main_v12 : IVec S_ 1 := (fun x v => Host.reduce IntOp.andi x v reducesTo_S4x1000000_S_d0_1 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S2x1000000 : Shape := ⟨2, ![2, 1000000]⟩
abbrev S4x1000000 : Shape := ⟨2, ![4, 1000000]⟩
abbrev S1x1000000 : Shape := ⟨2, ![1, 1000000]⟩
abbrev S1000000 : Shape := ⟨1, ![1000000]⟩
abbrev S1000000x4 : Shape := ⟨2, ![1000000, 4]⟩
abbrev S4000x4 : Shape := ⟨2, ![4000, 4]⟩
abbrev S4000 : Shape := ⟨1, ![4000]⟩
abbrev S4000x1 : Shape := ⟨2, ![4000, 1]⟩
abbrev S_ : Shape := ⟨0, ![]⟩
abbrev S150000x4 : Shape := ⟨2, ![150000, 4]⟩
abbrev S1000000x1 : Shape := ⟨2, ![1000000, 1]⟩
abbrev S150000x64 : Shape := ⟨2, ![150000, 64]⟩
abbrev S1000000x64 : Shape := ⟨2, ![1000000, 64]⟩
abbrev S4000x64 : Shape := ⟨2, ![4000, 64]⟩
abbrev S4000x4x16 : Shape := ⟨3, ![4000, 4, 16]⟩
abbrev S4000x4x1 : Shape := ⟨3, ![4000, 4, 1]⟩
abbrev S150000x4x16 : Shape := ⟨3, ![150000, 4, 16]⟩

abbrev nBuf : Space → Nat
  | .hbm => 96
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2x1000000, .i32⟩
  | .hbm, ⟨3, _⟩ => ⟨S4x1000000, .f32⟩
  | .hbm, ⟨4, _⟩ => ⟨S1x1000000, .i32⟩
  | .hbm, ⟨5, _⟩ => ⟨S1000000, .i32⟩
  | .hbm, ⟨6, _⟩ => ⟨S1x1000000, .i32⟩
  | .hbm, ⟨7, _⟩ => ⟨S1000000, .i32⟩
  | .hbm, ⟨8, _⟩ => ⟨S1000000x4, .f32⟩
  | .hbm, ⟨9, _⟩ => ⟨S1000000x4, .f32⟩
  | .hbm, ⟨10, _⟩ => ⟨S_, .f32⟩
  | .hbm, ⟨11, _⟩ => ⟨S150000x4, .f32⟩
  | .hbm, ⟨12, _⟩ => ⟨S1000000x1, .i32⟩
  | .hbm, ⟨13, _⟩ => ⟨S150000x4, .f32⟩
  | .hbm, ⟨14, _⟩ => ⟨S_, .f32⟩
  | .hbm, ⟨15, _⟩ => ⟨S150000x4, .f32⟩
  | .hbm, ⟨16, _⟩ => ⟨S1000000x1, .i32⟩
  | .hbm, ⟨17, _⟩ => ⟨S150000x4, .f32⟩
  | .hbm, ⟨18, _⟩ => ⟨S150000x4, .f32⟩
  | .hbm, ⟨19, _⟩ => ⟨S_, .f32⟩
  | .hbm, ⟨20, _⟩ => ⟨S150000x4, .f32⟩
  | .hbm, ⟨21, _⟩ => ⟨S150000x4, .i1⟩
  | .hbm, ⟨22, _⟩ => ⟨S_, .f32⟩
  | .hbm, ⟨23, _⟩ => ⟨S150000x4, .f32⟩
  | .hbm, ⟨24, _⟩ => ⟨S150000x4, .f32⟩
  | .hbm, ⟨25, _⟩ => ⟨S150000x4, .f32⟩
  | .hbm, ⟨26, _⟩ => ⟨S_, .f32⟩
  | .hbm, ⟨27, _⟩ => ⟨S150000x4, .f32⟩
  | .hbm, ⟨28, _⟩ => ⟨S150000x4, .f32⟩
  | .hbm, ⟨29, _⟩ => ⟨S_, .f32⟩
  | .hbm, ⟨30, _⟩ => ⟨S_, .f32⟩
  | .hbm, ⟨31, _⟩ => ⟨S150000x4, .f32⟩
  | .hbm, ⟨32, _⟩ => ⟨S150000x4, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x4, .f32⟩
  | .hbm, ⟨42, _⟩ => ⟨S_, .i32⟩
  | .hbm, ⟨43, _⟩ => ⟨S1000000, .i32⟩
  | .hbm, ⟨44, _⟩ => ⟨S1000000, .i1⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1000000, .i32⟩
  | .hbm, ⟨49, _⟩ => ⟨S1000000x1, .i32⟩
  | .hbm, ⟨50, _⟩ => ⟨S1000000x4, .f32⟩
  | .hbm, ⟨51, _⟩ => ⟨S1000000x4, .f32⟩
  | .hbm, ⟨52, _⟩ => ⟨S150000x64, .f32⟩
  | .hbm, ⟨53, _⟩ => ⟨S_, .i32⟩
  | .hbm, ⟨54, _⟩ => ⟨S1000000, .i32⟩
  | .hbm, ⟨55, _⟩ => ⟨S1000000, .i1⟩
  | .hbm, ⟨56, _⟩ => ⟨S_, .i32⟩
  | .hbm, ⟨57, _⟩ => ⟨S1000000, .i32⟩
  | .hbm, ⟨58, _⟩ => ⟨S1000000, .i32⟩
  | .hbm, ⟨59, _⟩ => ⟨S1000000, .i32⟩
  | .hbm, ⟨60, _⟩ => ⟨S1000000x1, .i32⟩
  | .hbm, ⟨61, _⟩ => ⟨S1000000x64, .f32⟩
  | .hbm, ⟨62, _⟩ => ⟨S1000000x64, .f32⟩
  | .hbm, ⟨63, _⟩ => ⟨S_, .f32⟩
  | .hbm, ⟨64, _⟩ => ⟨S150000x64, .f32⟩
  | .hbm, ⟨65, _⟩ => ⟨S1000000x1, .i32⟩
  | .hbm, ⟨66, _⟩ => ⟨S150000x64, .f32⟩
  | .hbm, ⟨67, _⟩ => ⟨S_, .i32⟩
  | .hbm, ⟨68, _⟩ => ⟨S1000000, .i32⟩
  | .hbm, ⟨69, _⟩ => ⟨S1000000, .i1⟩
  | .hbm, ⟨70, _⟩ => ⟨S_, .i32⟩
  | .hbm, ⟨71, _⟩ => ⟨S1000000, .i32⟩
  | .hbm, ⟨72, _⟩ => ⟨S1000000, .i32⟩
  | .hbm, ⟨73, _⟩ => ⟨S1000000, .i32⟩
  | .hbm, ⟨74, _⟩ => ⟨S1000000x1, .i32⟩
  | .hbm, ⟨75, _⟩ => ⟨S1000000x64, .f32⟩
  | .hbm, ⟨76, _⟩ => ⟨S1000000x64, .f32⟩
  | .hbm, ⟨77, _⟩ => ⟨S_, .f32⟩
  | .hbm, ⟨78, _⟩ => ⟨S150000x64, .f32⟩
  | .hbm, ⟨79, _⟩ => ⟨S1000000x1, .i32⟩
  | .hbm, ⟨80, _⟩ => ⟨S150000x64, .f32⟩
  | .hbm, ⟨81, _⟩ => ⟨S_, .i32⟩
  | .hbm, ⟨82, _⟩ => ⟨S1000000, .i32⟩
  | .hbm, ⟨83, _⟩ => ⟨S1000000, .i1⟩
  | .hbm, ⟨84, _⟩ => ⟨S_, .i32⟩
  | .hbm, ⟨85, _⟩ => ⟨S1000000, .i32⟩
  | .hbm, ⟨86, _⟩ => ⟨S1000000, .i32⟩
  | .hbm, ⟨87, _⟩ => ⟨S1000000, .i32⟩
  | .hbm, ⟨88, _⟩ => ⟨S1000000x1, .i32⟩
  | .hbm, ⟨89, _⟩ => ⟨S1000000x64, .f32⟩
  | .hbm, ⟨90, _⟩ => ⟨S1000000x64, .f32⟩
  | .hbm, ⟨91, _⟩ => ⟨S_, .f32⟩
  | .hbm, ⟨92, _⟩ => ⟨S150000x64, .f32⟩
  | .hbm, ⟨93, _⟩ => ⟨S1000000x1, .i32⟩
  | .hbm, ⟨94, _⟩ => ⟨S150000x64, .f32⟩
  | .hbm, ⟨95, _⟩ => ⟨S150000x4x16, .f32⟩
  | .local _ .vmem, ⟨0, _⟩ => ⟨S4000x4, .f32⟩
  | .local _ .vmem, ⟨1, _⟩ => ⟨S4000x4, .f32⟩
  | .local _ .vmem, ⟨2, _⟩ => ⟨S4000x4, .f32⟩
  | .local _ .vmem, ⟨3, _⟩ => ⟨S4000x4, .f32⟩
  | .local _ .vmem, ⟨4, _⟩ => ⟨S4000x64, .f32⟩
  | .local _ .vmem, ⟨5, _⟩ => ⟨S4000x64, .f32⟩
  | .local _ .vmem, ⟨6, _⟩ => ⟨S4000x4, .f32⟩
  | .local _ .vmem, ⟨7, _⟩ => ⟨S4000x4, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x4, .f32⟩
  | .local _ .vmem, ⟨13, _⟩ => ⟨S4000x4, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x4, .f32⟩
  | .local _ .vmem, ⟨19, _⟩ => ⟨S4000x4, .f32⟩
  | .local _ .vmem, ⟨20, _⟩ => ⟨S4000x64, .f32⟩
  | .local _ .vmem, ⟨21, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_11 : Ref sig .tc := ⟨.hbm, 67, rfl⟩
abbrev main_v48 : Ref sig .tc := ⟨.hbm, 68, rfl⟩
abbrev main_v49 : Ref sig .tc := ⟨.hbm, 69, rfl⟩
abbrev main_c_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_14 : Ref sig .tc := ⟨.hbm, 81, rfl⟩
abbrev main_v59 : Ref sig .tc := ⟨.hbm, 82, rfl⟩
abbrev main_v60 : Ref sig .tc := ⟨.hbm, 83, rfl⟩
abbrev main_c_15 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_16 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x4 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  transposes_S4x1000000_S1000000x4_1_0 : S4x1000000.Transposes [1, 0] S1000000x4
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  reduces_S4000x4_S4000 : S4000x4.Reduces [1] S4000
  shapeCasts_S4000_S4000x1 : S4000.ShapeCasts S4000x1
  broadcasts_S4000x1_S4000x4 : S4000x1.Broadcasts S4000x4
  bcast_S_S150000x4 : S_.BroadcastsInDim S150000x4 (![] : Fin 0 → Fin S150000x4.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  concatenates_S100000x64_S50000x64_S150000x64_d0 : Shape.Concatenates [S100000x64, S50000x64] S150000x64 0
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  shapeCasts_S4000x64_S4000x4x16 : S4000x64.ShapeCasts S4000x4x16
  shapeCasts_S4000x4_S4000x4x1 : S4000x4.ShapeCasts S4000x4x1
  broadcasts_S4000x4x1_S4000x4x16 : S4000x4x1.Broadcasts S4000x4x16
  shapeCasts_S4000x4x16_S4000x64 : S4000x4x16.ShapeCasts S4000x64
  bcast_S_S150000x64 : S_.BroadcastsInDim S150000x64 (![] : Fin 0 → Fin S150000x64.rank)
  shapeCasts_S150000x64_S150000x4x16 : S150000x64.ShapeCasts S150000x4x16
  scatter_S150000x4_S1000000x1_S1000000x4_1_0_0_1_wf : ScatterDims.WF S150000x4 S1000000x1 S1000000x4 [1] [0] [0] 1
  gather_S150000x4_S1000000x1_S1000000x4_1_0_n_n_0_1_14_wf : GatherDims.WF S150000x4 S1000000x1 S1000000x4 [1] [0] [] [0] [] 1 ![1, 4]
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x4.size a ≤ S1000000x4.size a
  hwx0_0 : ∀ i : grid0.Coords, EltTy.bits .f32 = 32 ∨ (Rect.block (s := S1000000x4) S4000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x4.size a ≤ S1000000x4.size a
  hwx0_1 : ∀ i : grid0.Coords, EltTy.bits .f32 = 32 ∨ (Rect.block (s := S1000000x4) S4000x4.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S1000000x64.size a
  hwx1_0 : ∀ i : grid1.Coords, EltTy.bits .f32 = 32 ∨ (Rect.block (s := S1000000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x4.size a ≤ S1000000x4.size a
  hwx1_1 : ∀ i : grid1.Coords, EltTy.bits .f32 = 32 ∨ (Rect.block (s := S1000000x4) S4000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S1000000x64.size a
  hwx1_2 : ∀ i : grid1.Coords, EltTy.bits .f32 = 32 ∨ (Rect.block (s := S1000000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S1000000x64.size a
  hwx2_0 : ∀ i : grid2.Coords, EltTy.bits .f32 = 32 ∨ (Rect.block (s := S1000000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x4.size a ≤ S1000000x4.size a
  hwx2_1 : ∀ i : grid2.Coords, EltTy.bits .f32 = 32 ∨ (Rect.block (s := S1000000x4) S4000x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S1000000x64.size a
  hwx2_2 : ∀ i : grid2.Coords, EltTy.bits .f32 = 32 ∨ (Rect.block (s := S1000000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S1000000x64.size a
  hwx3_0 : ∀ i : grid3.Coords, EltTy.bits .f32 = 32 ∨ (Rect.block (s := S1000000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x4.size a ≤ S1000000x4.size a
  hwx3_1 : ∀ i : grid3.Coords, EltTy.bits .f32 = 32 ∨ (Rect.block (s := S1000000x4) S4000x4.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S1000000x64.size a
  hwx3_2 : ∀ i : grid3.Coords, EltTy.bits .f32 = 32 ∨ (Rect.block (s := S1000000x64) S4000x64.size (cc3_transform_2 i) (hinb3_2 i)).WholeWords (EltTy.packing .f32)

variable [Facts₀]

def scatter_S150000x4_S1000000x1_S1000000x4_1_0_0_1 : ScatterDims S150000x4 S1000000x1 S1000000x4 where
  updateWindowDims := [1]
  insertedWindowDims := [0]
  scatterDimsToOperandDims := [0]
  indexVectorDim := 1
  wf := scatter_S150000x4_S1000000x1_S1000000x4_1_0_0_1_wf
def gather_S150000x4_S1000000x1_S1000000x4_1_0_n_n_0_1_14 : GatherDims S150000x4 S1000000x1 S1000000x4 where
  offsetDims := [1]
  collapsedSliceDims := [0]
  operandBatchingDims := []
  startIndicesBatchingDims := []
  startIndexMap := [0]
  indexVectorDim := 1
  sliceSizes := ![1, 4]
  wf := gather_S150000x4_S1000000x1_S1000000x4_1_0_n_n_0_1_14_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf

abbrev win0_0 : Pipeline.Window sig grid0 :=
  Pipeline.Window.ofSpec (Memref.whole main_v4) S4000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v43) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v54) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S4000x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S4000x4.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S2x1000000 : Shape := ⟨2, ![2, 1000000]⟩
abbrev S4x1000000 : Shape := ⟨2, ![4, 1000000]⟩
abbrev S1x1000000 : Shape := ⟨2, ![1, 1000000]⟩
abbrev S1000000 : Shape := ⟨1, ![1000000]⟩
abbrev S150000x64 : Shape := ⟨2, ![150000, 64]⟩
abbrev S150000x4x16 : Shape := ⟨3, ![150000, 4, 16]⟩
abbrev S_ : Shape := ⟨0, ![]⟩
abbrev S1000000x4 : Shape := ⟨2, ![1000000, 4]⟩
abbrev S150000x4 : Shape := ⟨2, ![150000, 4]⟩
abbrev S1000000x1 : Shape := ⟨2, ![1000000, 1]⟩
abbrev S1000000x4x1 : Shape := ⟨3, ![1000000, 4, 1]⟩
abbrev S1000000x4x16 : Shape := ⟨3, ![1000000, 4, 16]⟩

abbrev nBuf : Space → Nat
  | .hbm => 229
  | .vmem => 0
  | .smem => 0
  | _ => 0

abbrev hbmTy0_0 (i : Nat) : BufTy := match i % 128 with
  | 0 => ⟨S100000x64, .f32⟩
  | 1 => ⟨S50000x64, .f32⟩
  | 2 => ⟨S2x1000000, .i32⟩
  | 3 => ⟨S4x1000000, .f32⟩
  | 4 => ⟨S1x1000000, .i32⟩
  | 5 => ⟨S1000000, .i32⟩
  | 6 => ⟨S1x1000000, .i32⟩
  | 7 => ⟨S1000000, .i32⟩
  | 8 => ⟨S150000x64, .f32⟩
  | 9 => ⟨S150000x4x16, .f32⟩
  | 10 => ⟨S_, .f32⟩
  | 11 => ⟨S1000000, .f32⟩
  | 12 => ⟨S_, .f32⟩
  | 13 => ⟨S1000000, .f32⟩
  | 14 => ⟨S1000000, .f32⟩
  | 15 => ⟨S1x1000000, .f32⟩
  | 16 => ⟨S4x1000000, .f32⟩
  | 17 => ⟨S4x1000000, .f32⟩
  | 18 => ⟨S4x1000000, .f32⟩
  | 19 => ⟨S_, .f32⟩
  | 20 => ⟨S1000000, .f32⟩
  | 21 => ⟨S1x1000000, .f32⟩
  | 22 => ⟨S4x1000000, .f32⟩
  | 23 => ⟨S4x1000000, .f32⟩
  | 24 => ⟨S1000000x4, .f32⟩
  | 25 => ⟨S_, .f32⟩
  | 26 => ⟨S150000x4, .f32⟩
  | 27 => ⟨S1000000x1, .i32⟩
  | 28 => ⟨S150000x4, .f32⟩
  | 29 => ⟨S_, .f32⟩
  | 30 => ⟨S150000x4, .f32⟩
  | 31 => ⟨S1000000x1, .i32⟩
  | 32 => ⟨S150000x4, .f32⟩
  | 33 => ⟨S150000x4, .f32⟩
  | 34 => ⟨S_, .f32⟩
  | 35 => ⟨S150000x4, .f32⟩
  | 36 => ⟨S150000x4, .i1⟩
  | 37 => ⟨S_, .f32⟩
  | 38 => ⟨S150000x4, .f32⟩
  | 39 => ⟨S150000x4, .f32⟩
  | 40 => ⟨S150000x4, .f32⟩
  | 41 => ⟨S_, .f32⟩
  | 42 => ⟨S150000x4, .f32⟩
  | 43 => ⟨S150000x4, .f32⟩
  | 44 => ⟨S_, .f32⟩
  | 45 => ⟨S_, .f32⟩
  | 46 => ⟨S150000x4, .f32⟩
  | 47 => ⟨S150000x4, .f32⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i32⟩
  | 54 => ⟨S1000000, .i32⟩
  | 55 => ⟨S1000000x1, .i32⟩
  | 56 => ⟨S1000000x4, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x4, .f32⟩
  | 66 => ⟨S1000000x4, .f32⟩
  | 67 => ⟨S1000000x4x1, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x4x16, .f32⟩
  | 77 => ⟨S1000000x4x16, .f32⟩
  | 78 => ⟨S1000000x4x16, .f32⟩
  | 79 => ⟨S_, .f32⟩
  | 80 => ⟨S150000x4x16, .f32⟩
  | 81 => ⟨S1000000x1, .i32⟩
  | 82 => ⟨S150000x4x16, .f32⟩
  | 83 => ⟨S_, .f32⟩
  | 84 => ⟨S1000000, .f32⟩
  | 85 => ⟨S_, .f32⟩
  | 86 => ⟨S1000000, .f32⟩
  | 87 => ⟨S1000000, .f32⟩
  | 88 => ⟨S1x1000000, .f32⟩
  | 89 => ⟨S4x1000000, .f32⟩
  | 90 => ⟨S4x1000000, .f32⟩
  | 91 => ⟨S4x1000000, .f32⟩
  | 92 => ⟨S_, .f32⟩
  | 93 => ⟨S1000000, .f32⟩
  | 94 => ⟨S1x1000000, .f32⟩
  | 95 => ⟨S4x1000000, .f32⟩
  | 96 => ⟨S4x1000000, .f32⟩
  | 97 => ⟨S1000000x4, .f32⟩
  | 98 => ⟨S_, .f32⟩
  | 99 => ⟨S150000x4, .f32⟩
  | 100 => ⟨S1000000x1, .i32⟩
  | 101 => ⟨S150000x4, .f32⟩
  | 102 => ⟨S_, .f32⟩
  | 103 => ⟨S150000x4, .f32⟩
  | 104 => ⟨S1000000x1, .i32⟩
  | 105 => ⟨S150000x4, .f32⟩
  | 106 => ⟨S150000x4, .f32⟩
  | 107 => ⟨S_, .f32⟩
  | 108 => ⟨S150000x4, .f32⟩
  | 109 => ⟨S150000x4, .i1⟩
  | 110 => ⟨S_, .f32⟩
  | 111 => ⟨S150000x4, .f32⟩
  | 112 => ⟨S150000x4, .f32⟩
  | 113 => ⟨S150000x4, .f32⟩
  | 114 => ⟨S_, .f32⟩
  | 115 => ⟨S150000x4, .f32⟩
  | 116 => ⟨S150000x4, .f32⟩
  | 117 => ⟨S_, .f32⟩
  | 118 => ⟨S_, .f32⟩
  | 119 => ⟨S150000x4, .f32⟩
  | 120 => ⟨S150000x4, .f32⟩
  | 121 => ⟨S_, .i32⟩
  | 122 => ⟨S1000000, .i32⟩
  | 123 => ⟨S1000000, .i1⟩
  | 124 => ⟨S_, .i32⟩
  | 125 => ⟨S1000000, .i32⟩
  | 126 => ⟨S1000000, .i32⟩
  | 127 => ⟨S1000000, .i32⟩
  | _ => ⟨S100000x64, .f32⟩

abbrev hbmTy0_1 (i : Nat) : BufTy := match i % 128 with
  | 0 => ⟨S1000000x1, .i32⟩
  | 1 => ⟨S1000000x4, .f32⟩
  | 2 => ⟨S_, .i32⟩
  | 3 => ⟨S1000000, .i32⟩
  | 4 => ⟨S1000000, .i1⟩
  | 5 => ⟨S_, .i32⟩
  | 6 => ⟨S1000000, .i32⟩
  | 7 => ⟨S1000000, .i32⟩
  | 8 => ⟨S1000000, .i32⟩
  | 9 => ⟨S1000000x1, .i32⟩
  | 10 => ⟨S1000000x4, .f32⟩
  | 11 => ⟨S1000000x4, .f32⟩
  | 12 => ⟨S1000000x4x1, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x4x16, .f32⟩
  | 22 => ⟨S1000000x4x16, .f32⟩
  | 23 => ⟨S1000000x4x16, .f32⟩
  | 24 => ⟨S_, .f32⟩
  | 25 => ⟨S150000x4x16, .f32⟩
  | 26 => ⟨S1000000x1, .i32⟩
  | 27 => ⟨S150000x4x16, .f32⟩
  | 28 => ⟨S_, .f32⟩
  | 29 => ⟨S1000000, .f32⟩
  | 30 => ⟨S_, .f32⟩
  | 31 => ⟨S1000000, .f32⟩
  | 32 => ⟨S1000000, .f32⟩
  | 33 => ⟨S1x1000000, .f32⟩
  | 34 => ⟨S4x1000000, .f32⟩
  | 35 => ⟨S4x1000000, .f32⟩
  | 36 => ⟨S4x1000000, .f32⟩
  | 37 => ⟨S_, .f32⟩
  | 38 => ⟨S1000000, .f32⟩
  | 39 => ⟨S1x1000000, .f32⟩
  | 40 => ⟨S4x1000000, .f32⟩
  | 41 => ⟨S4x1000000, .f32⟩
  | 42 => ⟨S1000000x4, .f32⟩
  | 43 => ⟨S_, .f32⟩
  | 44 => ⟨S150000x4, .f32⟩
  | 45 => ⟨S1000000x1, .i32⟩
  | 46 => ⟨S150000x4, .f32⟩
  | 47 => ⟨S_, .f32⟩
  | 48 => ⟨S150000x4, .f32⟩
  | 49 => ⟨S1000000x1, .i32⟩
  | 50 => ⟨S150000x4, .f32⟩
  | 51 => ⟨S150000x4, .f32⟩
  | 52 => ⟨S_, .f32⟩
  | 53 => ⟨S150000x4, .f32⟩
  | 54 => ⟨S150000x4, .i1⟩
  | 55 => ⟨S_, .f32⟩
  | 56 => ⟨S150000x4, .f32⟩
  | 57 => ⟨S150000x4, .f32⟩
  | 58 => ⟨S150000x4, .f32⟩
  | 59 => ⟨S_, .f32⟩
  | 60 => ⟨S150000x4, .f32⟩
  | 61 => ⟨S150000x4, .f32⟩
  | 62 => ⟨S_, .f32⟩
  | 63 => ⟨S_, .f32⟩
  | 64 => ⟨S150000x4, .f32⟩
  | 65 => ⟨S150000x4, .f32⟩
  | 66 => ⟨S_, .i32⟩
  | 67 => ⟨S1000000, .i32⟩
  | 68 => ⟨S1000000, .i1⟩
  | 69 => ⟨S_, .i32⟩
  | 70 => ⟨S1000000, .i32⟩
  | 71 => ⟨S1000000, .i32⟩
  | 72 => ⟨S1000000, .i32⟩
  | 73 => ⟨S1000000x1, .i32⟩
  | 74 => ⟨S1000000x4, .f32⟩
  | 75 => ⟨S_, .i32⟩
  | 76 => ⟨S1000000, .i32⟩
  | 77 => ⟨S1000000, .i1⟩
  | 78 => ⟨S_, .i32⟩
  | 79 => ⟨S1000000, .i32⟩
  | 80 => ⟨S1000000, .i32⟩
  | 81 => ⟨S1000000, .i32⟩
  | 82 => ⟨S1000000x1, .i32⟩
  | 83 => ⟨S1000000x4, .f32⟩
  | 84 => ⟨S1000000x4, .f32⟩
  | 85 => ⟨S1000000x4x1, .f32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x4x16, .f32⟩
  | 95 => ⟨S1000000x4x16, .f32⟩
  | 96 => ⟨S1000000x4x16, .f32⟩
  | 97 => ⟨S_, .f32⟩
  | 98 => ⟨S150000x4x16, .f32⟩
  | 99 => ⟨S1000000x1, .i32⟩
  | 100 => ⟨S150000x4x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_call0_v0 : Ref sig .tc := ⟨.hbm, 45, rfl⟩
abbrev main_call0_v1 : Ref sig .tc := ⟨.hbm, 46, rfl⟩
abbrev main_v32 : Ref sig .tc := ⟨.hbm, 47, rfl⟩
abbrev main_c : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_c_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_c_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_14 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_16 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_17 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_18 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_19 : Ref sig .tc := ⟨.hbm, 107, rfl⟩
abbrev main_v80 : Ref sig .tc := ⟨.hbm, 108, rfl⟩
abbrev main_v81 : Ref sig .tc := ⟨.hbm, 109, rfl⟩
abbrev main_cst_20 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_21 : Ref sig .tc := ⟨.hbm, 114, rfl⟩
abbrev main_v85 : Ref sig .tc := ⟨.hbm, 115, rfl⟩
abbrev main_v86 : Ref sig .tc := ⟨.hbm, 116, rfl⟩
abbrev main_cst_22 : Ref sig .tc := ⟨.hbm, 117, rfl⟩
abbrev main_call1_v0 : Ref sig .tc := ⟨.hbm, 118, rfl⟩
abbrev main_call1_v1 : Ref sig .tc := ⟨.hbm, 119, rfl⟩
abbrev main_v87 : Ref sig .tc := ⟨.hbm, 120, rfl⟩
abbrev main_c_23 : Ref sig .tc := ⟨.hbm, 121, rfl⟩
abbrev main_v88 : Ref sig .tc := ⟨.hbm, 122, rfl⟩
abbrev main_v89 : Ref sig .tc := ⟨.hbm, 123, rfl⟩
abbrev main_c_24 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_25 : Ref sig .tc := ⟨.hbm, 130, rfl⟩
abbrev main_v95 : Ref sig .tc := ⟨.hbm, 131, rfl⟩
abbrev main_v96 : Ref sig .tc := ⟨.hbm, 132, rfl⟩
abbrev main_c_26 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_c_27 : Ref sig .tc := ⟨.hbm, 141, rfl⟩
abbrev main_v104 : Ref sig .tc := ⟨.hbm, 142, rfl⟩
abbrev main_v105 : Ref sig .tc := ⟨.hbm, 143, rfl⟩
abbrev main_c_28 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_29 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_30 : Ref sig .tc := ⟨.hbm, 156, rfl⟩
abbrev main_v116 : Ref sig .tc := ⟨.hbm, 157, rfl⟩
abbrev main_cst_31 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_32 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_33 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_34 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_35 : Ref sig .tc := ⟨.hbm, 180, rfl⟩
abbrev main_v135 : Ref sig .tc := ⟨.hbm, 181, rfl⟩
abbrev main_v136 : Ref sig .tc := ⟨.hbm, 182, rfl⟩
abbrev main_cst_36 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_37 : Ref sig .tc := ⟨.hbm, 187, rfl⟩
abbrev main_v140 : Ref sig .tc := ⟨.hbm, 188, rfl⟩
abbrev main_v141 : Ref sig .tc := ⟨.hbm, 189, rfl⟩
abbrev main_cst_38 : Ref sig .tc := ⟨.hbm, 190, rfl⟩
abbrev main_call2_v0 : Ref sig .tc := ⟨.hbm, 191, rfl⟩
abbrev main_call2_v1 : Ref sig .tc := ⟨.hbm, 192, rfl⟩
abbrev main_v142 : Ref sig .tc := ⟨.hbm, 193, rfl⟩
abbrev main_c_39 : Ref sig .tc := ⟨.hbm, 194, rfl⟩
abbrev main_v143 : Ref sig .tc := ⟨.hbm, 195, rfl⟩
abbrev main_v144 : Ref sig .tc := ⟨.hbm, 196, rfl⟩
abbrev main_c_40 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_c_41 : Ref sig .tc := ⟨.hbm, 203, rfl⟩
abbrev main_v150 : Ref sig .tc := ⟨.hbm, 204, rfl⟩
abbrev main_v151 : Ref sig .tc := ⟨.hbm, 205, rfl⟩
abbrev main_c_42 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_c_43 : Ref sig .tc := ⟨.hbm, 214, rfl⟩
abbrev main_v159 : Ref sig .tc := ⟨.hbm, 215, rfl⟩
abbrev main_v160 : Ref sig .tc := ⟨.hbm, 216, rfl⟩
abbrev main_c_44 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_cst_45 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S100000x64_S50000x64_S150000x64_d0 : Shape.Concatenates [S100000x64, S50000x64] S150000x64 0
  shapeCasts_S150000x64_S150000x4x16 : S150000x64.ShapeCasts S150000x4x16
  reducesTo_S4x1000000_S1000000_d0 : S4x1000000.ReducesTo [0] S1000000
  h_S_ : 0 < S_.numel
  bcast_S_S1000000 : S_.BroadcastsInDim S1000000 (![] : Fin 0 → Fin S1000000.rank)
  bcast_S1000000_S1x1000000_1 : S1000000.BroadcastsInDim S1x1000000 (![1] : Fin 1 → Fin S1x1000000.rank)
  bcast_S1x1000000_S4x1000000_0_1 : S1x1000000.BroadcastsInDim S4x1000000 (![0, 1] : Fin 2 → Fin S4x1000000.rank)
  transposes_S4x1000000_S1000000x4_1_0 : S4x1000000.Transposes [1, 0] S1000000x4
  bcast_S_S150000x4 : S_.BroadcastsInDim S150000x4 (![] : Fin 0 → Fin S150000x4.rank)
  bcast_S1000000_S1000000x1_0 : S1000000.BroadcastsInDim S1000000x1 (![0] : Fin 1 → Fin S1000000x1.rank)
  bcast_S1000000x4_S1000000x4x1_0_1 : S1000000x4.BroadcastsInDim S1000000x4x1 (![0, 1] : Fin 2 → Fin S1000000x4x1.rank)
  bcast_S1000000x4x1_S1000000x4x16_0_1_2 : S1000000x4x1.BroadcastsInDim S1000000x4x16 (![0, 1, 2] : Fin 3 → Fin S1000000x4x16.rank)
  bcast_S_S150000x4x16 : S_.BroadcastsInDim S150000x4x16 (![] : Fin 0 → Fin S150000x4x16.rank)
  scatter_S150000x4_S1000000x1_S1000000x4_1_0_0_1_wf : ScatterDims.WF S150000x4 S1000000x1 S1000000x4 [1] [0] [0] 1
  gather_S150000x4_S1000000x1_S1000000x4_1_0_n_n_0_1_14_wf : GatherDims.WF S150000x4 S1000000x1 S1000000x4 [1] [0] [] [0] [] 1 ![1, 4]
  gather_S150000x4x16_S1000000x1_S1000000x4x16_12_0_n_n_0_1_1416_wf : GatherDims.WF S150000x4x16 S1000000x1 S1000000x4x16 [1, 2] [0] [] [0] [] 1 ![1, 4, 16]
  scatter_S150000x4x16_S1000000x1_S1000000x4x16_12_0_0_1_wf : ScatterDims.WF S150000x4x16 S1000000x1 S1000000x4x16 [1, 2] [0] [0] 1

variable [Facts₀]

def scatter_S150000x4_S1000000x1_S1000000x4_1_0_0_1 : ScatterDims S150000x4 S1000000x1 S1000000x4 where
  updateWindowDims := [1]
  insertedWindowDims := [0]
  scatterDimsToOperandDims := [0]
  indexVectorDim := 1
  wf := scatter_S150000x4_S1000000x1_S1000000x4_1_0_0_1_wf
def gather_S150000x4_S1000000x1_S1000000x4_1_0_n_n_0_1_14 : GatherDims S150000x4 S1000000x1 S1000000x4 where
  offsetDims := [1]
  collapsedSliceDims := [0]
  operandBatchingDims := []
  startIndicesBatchingDims := []
  startIndexMap := [0]
  indexVectorDim := 1
  sliceSizes := ![1, 4]
  wf := gather_S150000x4_S1000000x1_S1000000x4_1_0_n_n_0_1_14_wf
def gather_S150000x4x16_S1000000x1_S1000000x4x16_12_0_n_n_0_1_1416 : GatherDims S150000x4x16 S1000000x1 S1000000x4x16 where
  offsetDims := [1, 2]
  collapsedSliceDims := [0]
  operandBatchingDims := []
  startIndicesBatchingDims := []
  startIndexMap := [0]
  indexVectorDim := 1
  sliceSizes := ![1, 4, 16]
  wf := gather_S150000x4x16_S1000000x1_S1000000x4x16_12_0_n_n_0_1_1416_wf
def scatter_S150000x4x16_S1000000x1_S1000000x4x16_12_0_0_1 : ScatterDims S150000x4x16 S1000000x1 S1000000x4x16 where
  updateWindowDims := [1, 2]
  insertedWindowDims := [0]
  scatterDimsToOperandDims := [0]
  indexVectorDim := 1
  wf := scatter_S150000x4x16_S1000000x1_S1000000x4x16_12_0_0_1_wf

class Facts : Prop extends Facts₀ where

variable [Facts]
-- ==== Proof.KernelRun.lean ====
/-
  The idealized kernel's run, read to the end: @main is eleven segments — seven stretches of host operations and
  four kernel launches — and the contents of the core's buffers at each segment boundary are a fold from the launch
  memory: a host stretch applies its operations, a launch leaves each of its arrays at what its grid points wrote
  back and every other buffer as it was. Every weakly fair execution terminates, nothing faulting, with every
  buffer that outlives the launches at the last valuation of that fold. So the result buffer ends at the fold's
  value there, and the four argument arrays end as launched.
-/
import proofs.«134008_j4887672782966_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Whatever holds of every final memory that has each buffer outliving the launches at the fold's last
    valuation `W11` holds at the end of every weakly fair execution of @main. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W11 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := hQ)

/-- The result buffer ends at the fold's last valuation; the argument arrays end as launched. -/
theorem run_result : θ_run defs (onTc (τ := τ) (main (F := F))) ⟨m, fun _ => 0, ρ⟩ (fun r => ∀ c : Dev nD,
      r.2.mem ((c.tc : Thread nD τ).loc main_v70) = W11 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_post m ρ fun s h c =>
    ⟨h c _ (mem_uc main_v70 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c)⟩

end Cert.KernelIdeal.RunValue

end
-- ==== Proof.Spec.lean ====
/-
  The mathematics both programs compute, stated once, index by index, on the extended reals.

  * `softmaxRows t`: each row of an [R, 4] array through a softmax: with M the row's maximum (a fold of `max`
    from -∞ over its four entries) an entry x becomes exp (x - M) / Σ_k exp (x_k - M).
  * `scaleChunks xg w`: an [R, 64] array whose rows are four chunks of sixteen, chunk k of row e scaled by w (e, k):
    entry (e, c) becomes xg (e, c) · w (e, c / 16).
  * `rowsAt` / `addRowsAt`: the two irregular graph operations in closed form. Reading rows of a table at a list
    of row numbers (a number outside the table is clamped into it), and adding rows into a table at a list of row
    numbers (a number outside the table drops its row): entry (n, …) of the result is the table's entry plus the sum
    over the list's positions e whose number is n of row e's entry.
-/
import Idealize.ShloMosaic.PureOps.Ideal
import Idealize.ShloMosaic.Lib.ValueIdx

noncomputable section

open scoped BigOperators

namespace Cert.Spec

open Idealize.ShloMosaic Idealize.ShloMosaic.ValueIdx

/-- The maximum of row `e` of an [R, 4] array: the fold of `max` from -∞ over its four entries. -/
def rowMax {R : Nat} (t : (⟨2, ![R, 4]⟩ : Shape).Idx → EReal) (e : Fin R) : EReal :=
  (Finset.univ : Finset (Fin 4)).fold max (Ideal.ofBits .f32 0xFF800000#32) (fun k => t (ix2 e k))

/-- Entry (e, k) shifted by its row's maximum and exponentiated. -/
def rowExp {R : Nat} (t : (⟨2, ![R, 4]⟩ : Shape).Idx → EReal) (e : Fin R) (k : Fin 4) : EReal :=
  Ideal.exp (t (ix2 e k) - rowMax t e)

/-- The softmax of every row of an [R, 4] array. -/
def softmaxRows {R : Nat} (t : (⟨2, ![R, 4]⟩ : Shape).Idx → EReal) : (⟨2, ![R, 4]⟩ : Shape).Idx → EReal :=
  fun i => Ideal.div (rowExp t ⟨(i 0).val, idx2_lt0 i⟩ ⟨(i 1).val, idx2_lt1 i⟩) (∑ k : Fin 4, rowExp t ⟨(i 0).val, idx2_lt0 i⟩ k)

/-- The chunk (of sixteen columns) that column `c` of 64 lies in. -/
def chunkOf (c : Fin 64) : Fin 4 := ⟨c.val / 16, by have := c.isLt; omega⟩

/-- Every chunk of sixteen of each row of an [R, 64] array scaled by that row's weight for the chunk. -/
def scaleChunks {R : Nat} (xg : (⟨2, ![R, 64]⟩ : Shape).Idx → EReal) (w : (⟨2, ![R, 4]⟩ : Shape).Idx → EReal) :
    (⟨2, ![R, 64]⟩ : Shape).Idx → EReal :=
  fun i => xg i * w (ix2 ⟨(i 0).val, idx2_lt0 i⟩ (chunkOf ⟨(i 1).val, idx2_lt1 i⟩))

/-- A row number read as a signed integer and clamped into a table of `N` rows. -/
def clampRow (N : Nat) (hN : 0 < N) (z : Int) : Fin N := ⟨min z.toNat (N - 1), by omega⟩

/-- An [N, 64] array seen as [N, 4, 16]: entry (n, k, c) is entry (n, 16 k + c). -/
def asChunks {N : Nat} (x : (⟨2, ![N, 64]⟩ : Shape).Idx → EReal) : (⟨3, ![N, 4, 16]⟩ : Shape).Idx → EReal :=
  fun i => x (ix2 ⟨(i 0).val, (i 0).isLt⟩ ⟨(i 1).val * 16 + (i 2).val, by
    have h1 : (i 1).val < 4 := (i 1).isLt
    have h2 : (i 2).val < 16 := (i 2).isLt
    omega⟩)

end Cert.Spec

end
-- ==== Proof.Bodies.lean ====
/-
  The two kernel bodies' stored values, read index by index on the extended reals.

  * the softmax body stores the row softmax of the block it loads;
  * the scaling body stores the loaded [4000, 64] block with each chunk of sixteen columns of a row
    multiplied by that row's weight for the chunk.
-/
import proofs.«134008_j4887672782966_2_alg».proof.Proof.Gen.KernelIdeal.Skeleton
import proofs.«134008_j4887672782966_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Bodies

open Idealize.ShloMosaic Idealize.ShloMosaic.ValueIdx

/-! ## A [4000] column kept as [4000, 1] and spread over four lanes -/

/-- A vector of 4000 entries viewed as a [4000, 1] column and then repeated along four lanes reads, at (e, c),
    its entry e. -/
theorem keepdims_read {α : Type} (z : (⟨1, ![4000]⟩ : Shape).Idx → α)
    (hc : (⟨1, ![4000]⟩ : Shape).ShapeCasts ⟨2, ![4000, 1]⟩)
    (hb : (⟨2, ![4000, 1]⟩ : Shape).Broadcasts ⟨2, ![4000, 4]⟩) (e : Fin 4000) (c : Fin 4) :
    broadcastTo (⟨2, ![4000, 4]⟩ : Shape) (shapeCast (⟨2, ![4000, 1]⟩ : Shape) z hc) hb (ix2 e c) = z (ix1 e) := by
  refine (broadcastTo_apply _ hb (ix2 e c) (ix2 e (0 : Fin 1)) ?_).trans ?_
  · intro a
    match a with
    | ⟨0, _⟩ => rfl
    | ⟨1, _⟩ => rfl
  · refine shapeCast_apply z hc (ix2 e (0 : Fin 1)) (ix1 e) ?_
    rw [Shape.rowMajor_val_one, Shape.rowMajor_val_two]
    show e.val = e.val * 1 + 0
    omega

/-- The index a reduction over the lane axis of a [4000, 4] array inserts lane k into, at row e, is (e, k). -/
theorem lift_lane (h : (⟨2, ![4000, 4]⟩ : Shape).Reduces [1] (⟨1, ![4000]⟩ : Shape)) (e : Fin 4000)
    (k : Fin ((⟨2, ![4000, 4]⟩ : Shape).size 1)) : h.lift (ix1 e) k = ix2 e (⟨k.val, k.isLt⟩ : Fin 4) := by
  funext a; apply Fin.ext
  match a with
  | ⟨0, _⟩ => rfl
  | ⟨1, _⟩ => rfl

/-! ## The softmax body -/

/-- From -∞ the maximum over the four lanes of each row, kept as a column and spread back over the lanes, is at
    (e, c) the row maximum of row e. -/
theorem rowMax_read (src : FVec Ideal (⟨2, ![4000, 4]⟩ : Shape) .f32)
    (hr : (⟨2, ![4000, 4]⟩ : Shape).Reduces [1] (⟨1, ![4000]⟩ : Shape)) (hφ : FKind.Formats .f32)
    (hacc : (0xFF800000#32 : BitVec FTy.f32.bits) = FKind.maximumf.neutral .f32 hφ)
    (hc : (⟨1, ![4000]⟩ : Shape).ShapeCasts ⟨2, ![4000, 1]⟩)
    (hb : (⟨2, ![4000, 1]⟩ : Shape).Broadcasts ⟨2, ![4000, 4]⟩) (e : Fin 4000) (c : Fin 4) :
    broadcastTo (⟨2, ![4000, 4]⟩ : Shape) (shapeCast (⟨2, ![4000, 1]⟩ : Shape)
        (multiReduction (F := Ideal) .maximumf [1] (⟨1, ![4000]⟩ : Shape) src 0xFF800000#32 hr hφ hacc) hc) hb (ix2 e c)
      = Cert.Spec.rowMax (R := 4000) src e := by
  refine (keepdims_read _ hc hb e c).trans ?_
  refine (Ideal.multiReduction_maximumf_single src _ hr hφ hacc (ix1 e)).trans ?_
  unfold Cert.Spec.rowMax
  have hf : (src ∘ hr.lift (ix1 e)) = fun k : Fin 4 => src (ix2 e k) :=
    funext fun k => congrArg src (lift_lane hr e k)
  exact congrArg (fun f => Finset.fold max (Ideal.ofBits .f32 0xFF800000#32) f (Finset.univ : Finset (Fin 4))) hf

/-- The sum over the four lanes of each row, kept as a column and spread back over the lanes, is at (e, c) the sum
    of row e. -/
theorem rowSum_read (src : FVec Ideal (⟨2, ![4000, 4]⟩ : Shape) .f32)
    (hr : (⟨2, ![4000, 4]⟩ : Shape).Reduces [1] (⟨1, ![4000]⟩ : Shape)) (hφ : FKind.Formats .f32)
    (hacc : (0x00000000#32 : BitVec FTy.f32.bits) = FKind.add.neutral .f32 hφ)
    (hc : (⟨1, ![4000]⟩ : Shape).ShapeCasts ⟨2, ![4000, 1]⟩)
    (hb : (⟨2, ![4000, 1]⟩ : Shape).Broadcasts ⟨2, ![4000, 4]⟩) (e : Fin 4000) (c : Fin 4) :
    broadcastTo (⟨2, ![4000, 4]⟩ : Shape) (shapeCast (⟨2, ![4000, 1]⟩ : Shape)
        (multiReduction (F := Ideal) .add [1] (⟨1, ![4000]⟩ : Shape) src 0x00000000#32 hr hφ hacc) hc) hb (ix2 e c)
      = ∑ k : Fin 4, src (ix2 e k) := by
  refine (keepdims_read _ hc hb e c).trans ?_
  refine (Ideal.multiReduction_add_single src _ hr hφ hacc (ix1 e)).trans ?_
  exact Finset.sum_congr rfl fun k _ => congrArg src (lift_lane hr e k)

/-- Subtracting each row's maximum, exponentiating, and dividing by the row's sum of exponentials is the row
    softmax. -/
theorem softmax_core (x : FVec Ideal (⟨2, ![4000, 4]⟩ : Shape) .f32)
    (hr : (⟨2, ![4000, 4]⟩ : Shape).Reduces [1] (⟨1, ![4000]⟩ : Shape)) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![4000]⟩ : Shape).ShapeCasts ⟨2, ![4000, 1]⟩)
    (hb : (⟨2, ![4000, 1]⟩ : Shape).Broadcasts ⟨2, ![4000, 4]⟩) :
    divf
        (exp (subf x (broadcastTo (⟨2, ![4000, 4]⟩ : Shape) (shapeCast (⟨2, ![4000, 1]⟩ : Shape)
          (multiReduction (F := Ideal) .maximumf [1] (⟨1, ![4000]⟩ : Shape) x 0xFF800000#32 hr hφ hmax) hc) hb)))
        (broadcastTo (⟨2, ![4000, 4]⟩ : Shape) (shapeCast (⟨2, ![4000, 1]⟩ : Shape)
          (multiReduction (F := Ideal) .add [1] (⟨1, ![4000]⟩ : Shape)
            (exp (subf x (broadcastTo (⟨2, ![4000, 4]⟩ : Shape) (shapeCast (⟨2, ![4000, 1]⟩ : Shape)
              (multiReduction (F := Ideal) .maximumf [1] (⟨1, ![4000]⟩ : Shape) x 0xFF800000#32 hr hφ hmax) hc) hb)))
            0x00000000#32 hr hφ hadd) hc) hb)
      = Cert.Spec.softmaxRows (R := 4000) x := by
  funext j
  obtain ⟨e, c, rfl⟩ : ∃ (e : Fin 4000) (c : Fin 4), j = ix2 e c := ⟨j 0, j 1, eq_ix2 j⟩
  -- the exponentials of the shifted row, entry by entry
  have hE : ∀ k : Fin 4,
      (exp (subf x (broadcastTo (⟨2, ![4000, 4]⟩ : Shape) (shapeCast (⟨2, ![4000, 1]⟩ : Shape)
          (multiReduction (F := Ideal) .maximumf [1] (⟨1, ![4000]⟩ : Shape) x 0xFF800000#32 hr hφ hmax) hc) hb))
        : FVec Ideal (⟨2, ![4000, 4]⟩ : Shape) .f32) (ix2 e k) = Cert.Spec.rowExp (R := 4000) x e k := by
    intro k
    show Ideal.exp (x (ix2 e k) - _) = Ideal.exp (x (ix2 e k) - Cert.Spec.rowMax (R := 4000) x e)
    rw [rowMax_read x hr hφ hmax hc hb e k]
  refine (divf_apply _ _ (ix2 e c)).trans ?_
  show Ideal.div _ _ = Ideal.div (Cert.Spec.rowExp (R := 4000) x e c) (∑ k : Fin 4, Cert.Spec.rowExp (R := 4000) x e k)
  rw [rowSum_read _ hr hφ hadd hc hb e c, hE c]
  exact congrArg (Ideal.div _) (Finset.sum_congr rfl fun k _ => hE k)

/-- THE SOFTMAX BODY: what it stores is the row softmax of the block it loads. -/
theorem softmax_payload (x0 : Vec Ideal Cert.KernelIdeal.S4000x4 .f32) :
    Cert.KernelIdeal.Gen.k0_pay1 (F := Ideal) x0 = Cert.Spec.softmaxRows (R := 4000) x0 := by
  unfold Cert.KernelIdeal.Gen.k0_pay1
  simp only [shapeCast_self]
  exact softmax_core x0 _ _ _ _ _ _

/-! ## The scaling body -/

/-- A [4000, 64] block seen as [4000, 4, 16], multiplied by the [4000, 4] weights spread over the sixteen columns of
    each chunk, and seen as [4000, 64] again: entry (e, c) is the block's entry times weight (e, c / 16). -/
theorem scale_core (x : FVec Ideal (⟨2, ![4000, 64]⟩ : Shape) .f32) (w : FVec Ideal (⟨2, ![4000, 4]⟩ : Shape) .f32)
    (h1 : (⟨2, ![4000, 64]⟩ : Shape).ShapeCasts ⟨3, ![4000, 4, 16]⟩)
    (h2 : (⟨2, ![4000, 4]⟩ : Shape).ShapeCasts ⟨3, ![4000, 4, 1]⟩)
    (h3 : (⟨3, ![4000, 4, 1]⟩ : Shape).Broadcasts ⟨3, ![4000, 4, 16]⟩)
    (h4 : (⟨3, ![4000, 4, 16]⟩ : Shape).ShapeCasts ⟨2, ![4000, 64]⟩) :
    shapeCast (⟨2, ![4000, 64]⟩ : Shape)
        (mulf (shapeCast (⟨3, ![4000, 4, 16]⟩ : Shape) x h1)
          (broadcastTo (⟨3, ![4000, 4, 16]⟩ : Shape) (shapeCast (⟨3, ![4000, 4, 1]⟩ : Shape) w h2) h3)) h4
      = Cert.Spec.scaleChunks (R := 4000) x w := by
  funext j
  obtain ⟨e, c, rfl⟩ : ∃ (e : Fin 4000) (c : Fin 64), j = ix2 e c := ⟨j 0, j 1, eq_ix2 j⟩
  have hq : c.val / 16 < 4 := by have := c.isLt; omega
  have hr : c.val % 16 < 16 := Nat.mod_lt _ (by decide)
  -- column c of 64 is column c % 16 of chunk c / 16
  refine (shapeCast_apply _ h4 (ix2 e c) (ix3 e ⟨c.val / 16, hq⟩ ⟨c.val % 16, hr⟩) ?_).trans ?_
  · rw [Shape.rowMajor_val_three, Shape.rowMajor_val_two]
    show (e.val * 4 + c.val / 16) * 16 + c.val % 16 = e.val * 64 + c.val
    omega
  refine (mulf_apply _ _ _).trans ?_
  have hx : shapeCast (⟨3, ![4000, 4, 16]⟩ : Shape) x h1 (ix3 e ⟨c.val / 16, hq⟩ ⟨c.val % 16, hr⟩) = x (ix2 e c) := by
    refine shapeCast_apply x h1 _ (ix2 e c) ?_
    rw [Shape.rowMajor_val_three, Shape.rowMajor_val_two]
    show e.val * 64 + c.val = (e.val * 4 + c.val / 16) * 16 + c.val % 16
    omega
  have hw : broadcastTo (⟨3, ![4000, 4, 16]⟩ : Shape) (shapeCast (⟨3, ![4000, 4, 1]⟩ : Shape) w h2) h3
      (ix3 e ⟨c.val / 16, hq⟩ ⟨c.val % 16, hr⟩) = w (ix2 e ⟨c.val / 16, hq⟩) := by
    refine (broadcastTo_apply _ h3 _ (ix3 e ⟨c.val / 16, hq⟩ (0 : Fin 1)) ?_).trans ?_
    · intro a
      match a with
      | ⟨0, _⟩ => rfl
      | ⟨1, _⟩ => rfl
      | ⟨2, _⟩ => rfl
    · refine shapeCast_apply w h2 _ (ix2 e ⟨c.val / 16, hq⟩) ?_
      rw [Shape.rowMajor_val_two, Shape.rowMajor_val_three]
      show e.val * 4 + c.val / 16 = (e.val * 4 + c.val / 16) * 1 + 0
      omega
  rw [hx, hw]
  rfl

/-- THE SCALING BODY: what it stores is the loaded block with every chunk of sixteen scaled by its row's weight. -/
theorem scale_payload (x0 : Vec Ideal Cert.KernelIdeal.S4000x64 .f32) (x3 : Vec Ideal Cert.KernelIdeal.S4000x4 .f32) :
    Cert.KernelIdeal.Gen.k1_pay1 (F := Ideal) x0 x3 = Cert.Spec.scaleChunks (R := 4000) x0 x3 := by
  unfold Cert.KernelIdeal.Gen.k1_pay1
  simp only [shapeCast_self]
  exact scale_core x0 x3 _ _ _ _

/-- The second scaling body is the same term. -/
theorem scale_payload2 (x0 : Vec Ideal Cert.KernelIdeal.S4000x64 .f32) (x3 : Vec Ideal Cert.KernelIdeal.S4000x4 .f32) :
    Cert.KernelIdeal.Gen.k2_pay1 (F := Ideal) x0 x3 = Cert.Spec.scaleChunks (R := 4000) x0 x3 :=
  scale_payload x0 x3

/-- The third scaling body is the same term. -/
theorem scale_payload3 (x0 : Vec Ideal Cert.KernelIdeal.S4000x64 .f32) (x3 : Vec Ideal Cert.KernelIdeal.S4000x4 .f32) :
    Cert.KernelIdeal.Gen.k3_pay1 (F := Ideal) x0 x3 = Cert.Spec.scaleChunks (R := 4000) x0 x3 :=
  scale_payload x0 x3

/-! ## The transposed weights -/

/-- The [4, 1000000] weights transposed: entry (e, k) of the result is entry (k, e). -/
theorem transpose_read (x3 : Cert.KernelIdeal.S4x1000000.Idx → EReal)
    (h : Cert.KernelIdeal.S4x1000000.Transposes [1, 0] Cert.KernelIdeal.S1000000x4) :
    transpose Cert.KernelIdeal.S1000000x4 [1, 0] x3 h
      = fun i => x3 (ix2 ⟨(i 1).val, idx2_lt1 i⟩ ⟨(i 0).val, idx2_lt0 i⟩) := by
  funext i
  exact transpose_apply [1, 0] x3 h i (ix2 ⟨(i 1).val, idx2_lt1 i⟩ ⟨(i 0).val, idx2_lt0 i⟩) (fun b => match b with
    | ⟨0, _⟩ => rfl
    | ⟨1, _⟩ => rfl)

end Cert.Bodies

end
-- ==== Proof.SpecBlocks.lean ====
/-
  Both per-row functions are local to a row: the softmax of a row and the scaling of a row's chunks read nothing outside
  that row. So a block of consecutive rows of an array, put through the function, is that block of the function of
  the whole array — which is why computing block by block over a grid gives the whole-array function.
-/
import proofs.«134008_j4887672782966_2_alg».proof.Proof.Spec

noncomputable section

open scoped BigOperators

namespace Cert.Spec

open Idealize.ShloMosaic Idealize.ShloMosaic.ValueIdx

section Softmax
variable {R B : Nat} (A : (⟨2, ![R, 4]⟩ : Shape).Idx → EReal) (blk : (⟨2, ![B, 4]⟩ : Shape).Idx → EReal)
  (off : Nat) (hoff : ∀ r : Fin B, off + r.val < R)
  (h : ∀ (r : Fin B) (k : Fin 4), blk (ix2 r k) = A (ix2 ⟨off + r.val, hoff r⟩ k))
include h

/-- Row `r` of the block has the maximum of row `off + r` of the array. -/
theorem rowMax_block (r : Fin B) : rowMax blk r = rowMax A ⟨off + r.val, hoff r⟩ := by
  unfold rowMax
  exact congrArg (fun f => Finset.fold max (Ideal.ofBits .f32 0xFF800000#32) f Finset.univ) (funext fun k => h r k)

/-- … and the same shifted exponentials. -/
theorem rowExp_block (r : Fin B) (k : Fin 4) : rowExp blk r k = rowExp A ⟨off + r.val, hoff r⟩ k := by
  unfold rowExp
  rw [h r k, rowMax_block A blk off hoff h r]

/-- The softmax of the block at `j` is the softmax of the array at the index `j` names in it. -/
theorem softmaxRows_block (j : (⟨2, ![B, 4]⟩ : Shape).Idx) (i : (⟨2, ![R, 4]⟩ : Shape).Idx)
    (hi0 : (i 0).val = off + (j 0).val) (hi1 : (i 1).val = (j 1).val) : softmaxRows blk j = softmaxRows A i := by
  unfold softmaxRows
  have e0 : (⟨(i 0).val, idx2_lt0 i⟩ : Fin R) = ⟨off + (j 0).val, hoff ⟨(j 0).val, idx2_lt0 j⟩⟩ := Fin.ext hi0
  have e1 : (⟨(i 1).val, idx2_lt1 i⟩ : Fin 4) = ⟨(j 1).val, idx2_lt1 j⟩ := Fin.ext hi1
  rw [e0, e1]
  simp only [rowExp_block A blk off hoff h]

end Softmax

section Scale
variable {R B : Nat} (X : (⟨2, ![R, 64]⟩ : Shape).Idx → EReal) (Wt : (⟨2, ![R, 4]⟩ : Shape).Idx → EReal)
  (bx : (⟨2, ![B, 64]⟩ : Shape).Idx → EReal) (bw : (⟨2, ![B, 4]⟩ : Shape).Idx → EReal)
  (off : Nat) (hoff : ∀ r : Fin B, off + r.val < R)
  (hx : ∀ (r : Fin B) (c : Fin 64), bx (ix2 r c) = X (ix2 ⟨off + r.val, hoff r⟩ c))
  (hw : ∀ (r : Fin B) (k : Fin 4), bw (ix2 r k) = Wt (ix2 ⟨off + r.val, hoff r⟩ k))
include hx hw

/-- The scaled block at `j` is the scaled array at the index `j` names in it. -/
theorem scaleChunks_block (j : (⟨2, ![B, 64]⟩ : Shape).Idx) (i : (⟨2, ![R, 64]⟩ : Shape).Idx)
    (hi0 : (i 0).val = off + (j 0).val) (hi1 : (i 1).val = (j 1).val) : scaleChunks bx bw j = scaleChunks X Wt i := by
  unfold scaleChunks
  have ei : i = ix2 ⟨off + (j 0).val, hoff ⟨(j 0).val, idx2_lt0 j⟩⟩ ⟨(j 1).val, idx2_lt1 j⟩ := by
    funext a; apply Fin.ext
    match a with
    | ⟨0, _⟩ => exact hi0
    | ⟨1, _⟩ => exact hi1
  have e0 : (⟨(i 0).val, idx2_lt0 i⟩ : Fin R) = ⟨off + (j 0).val, hoff ⟨(j 0).val, idx2_lt0 j⟩⟩ := Fin.ext hi0
  have e1 : (⟨(i 1).val, idx2_lt1 i⟩ : Fin 64) = ⟨(j 1).val, idx2_lt1 j⟩ := Fin.ext hi1
  have ej : j = ix2 ⟨(j 0).val, idx2_lt0 j⟩ ⟨(j 1).val, idx2_lt1 j⟩ := by
    funext a; apply Fin.ext
    match a with
    | ⟨0, _⟩ => rfl
    | ⟨1, _⟩ => rfl
  rw [e0, e1]
  conv_lhs => rw [ej]
  rw [hx, hw]
  conv_rhs => rw [ei]
  rfl

end Scale

end Cert.Spec

end
-- ==== Proof.Regions.lean ====
/-
  What each kernel launch leaves in its output array, as ONE function of the arrays it was entered with. A launch
  runs its body at 250 grid points; point t stages rows 4000 t … 4000 t + 3999 of each operand, the body computes a
  row-local function of the staged blocks, and the result is written back to the same rows of the output. The blocks
  tile the output (row e lies in the block of point e / 4000), so the output array ends holding the row-local function
  of the whole operand arrays.
-/
import proofs.«134008_j4887672782966_2_alg».proof.Proof.Gen.KernelIdeal.Frame
import proofs.«134008_j4887672782966_2_alg».proof.Proof.SpecBlocks
import Idealize.ShloMosaic.Lib.Pipeline.Value

set_option maxRecDepth 16384

noncomputable section

namespace Cert.KernelIdeal.Regions

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The softmax launch -/

/-- Point `t` of the softmax launch stages and writes back block `(t, 0)`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The staged input block at point `t` is rows `4000 t …` of the operand. -/
theorem iblk0_apply (c : Dev nD) (t : Fin cfg0.N) (r : Fin 4000) (k : Fin 4) (hr : 4000 * t.val + r.val < 1000000) :
    (iblk0 V c 0 t : S4000x4.Idx → EReal) (ix2 r k) = (V c main_v4 : S1000000x4.Idx → EReal) (ix2 ⟨4000 * t.val + r.val, hr⟩ k) := by
  obtain ⟨e0, e1, -, -⟩ := idx0 t
  unfold iblk0
  rw [View.read_apply]
  show V c main_v4 _ = V c main_v4 _
  congr 1
  funext a
  apply Fin.ext
  match a with
  | ⟨0, _⟩ => show win0_0.index t 0 * 4000 + 1 * r.val = 4000 * t.val + r.val; rw [e0]; omega
  | ⟨1, _⟩ => show win0_0.index t 1 * 4 + 1 * k.val = k.val; rw [e1]; omega

/-- What point `t` writes back is block `t` of the row softmax of the whole operand (given that the body stores the
    row softmax of its staged block: `hpay`). -/
theorem flushed0 (hpay : ∀ x0 : Vec Ideal S4000x4 .f32, k0_pay1 (F := Ideal) x0 = softmaxRows (R := 4000) x0)
    (c : Dev nD) (t : Fin cfg0.N) :
    (dat0 V c).flushed 1 t = ((cfg0.win 1).blk t).view.read (Elt Ideal)
      (softmaxRows (R := 1000000) (V c main_v4 : S1000000x4.Idx → EReal)) := by
  show (cfg0.win 1).cut (grid0.coords t) ((dat0 V c).after 1 t) = _
  rw [after0_1]
  unfold out0_1
  rw [View.canon_unit_zero hz]
  simp only [View.ld_unit_zero (S := S4000x4) hz]
  rw [hpay]
  obtain ⟨-, -, e2, e3⟩ := idx0 t
  have hN : cfg0.N = 250 := N_0
  have ht : t.val < 250 := hN ▸ t.isLt
  funext j
  show softmaxRows (R := 4000) (iblk0 V c 0 t) j
    = softmaxRows (R := 1000000) (V c main_v4 : S1000000x4.Idx → EReal) (((cfg0.win 1).blk t).view.emb j)
  refine softmaxRows_block (V c main_v4 : S1000000x4.Idx → EReal) (iblk0 V c 0 t) (4000 * t.val)
    (fun r => by have := r.isLt; omega) (fun r k => iblk0_apply V c t r k _) j _ ?_ ?_
  · show win0_1.index t 0 * 4000 + 1 * (j 0).val = 4000 * t.val + (j 0).val
    rw [e2]; omega
  · show win0_1.index t 1 * 4 + 1 * (j 1).val = (j 1).val
    rw [e3]; omega

/-- Row `e` of the output lies in the block of point `e / 4000`. -/
theorem cover0 (i : S1000000x4.Idx) :
    ∃ t : Fin cfg0.N, (cfg0.win 1).flush t = true ∧ i ∈ ((cfg0.win 1).blk t).view.set := by
  have hN : cfg0.N = 250 := N_0
  have h0 : (i 0).val < 1000000 := (i 0).isLt
  have h1 : (i 1).val < 4 := (i 1).isLt
  let t : Fin cfg0.N := ⟨(i 0).val / 4000, by rw [hN]; omega⟩
  obtain ⟨-, -, e2, e3⟩ := idx0 t
  have hv : t.val = (i 0).val / 4000 := rfl
  refine ⟨t, flush0_1 t, ?_⟩
  show i ∈ ((View.whole main_v5).slice (win0_1.rect t)).set
  rw [View.set_slice_whole, Rect.mem_set_unit]
  intro a
  match a with
  | ⟨0, _⟩ =>
    show win0_1.index t 0 * 4000 ≤ (i 0).val ∧ (i 0).val < win0_1.index t 0 * 4000 + 4000
    rw [e2, hv]; omega
  | ⟨1, _⟩ =>
    show win0_1.index t 1 * 4 ≤ (i 1).val ∧ (i 1).val < win0_1.index t 1 * 4 + 4
    rw [e3]; omega

/-- The softmax launch leaves its output array at the row softmax of its operand array. -/
theorem arr0 (hpay : ∀ x0 : Vec Ideal S4000x4 .f32, k0_pay1 (F := Ideal) x0 = softmaxRows (R := 4000) x0) (c : Dev nD) :
    (dat0 V c).arrAt 1 cfg0.N = softmaxRows (R := 1000000) (V c main_v4 : S1000000x4.Idx → EReal) :=
  (dat0 V c).arrAt_eq_of_cover 1 _ (fun t _ => flushed0 V hpay c t) (cover0)

end Cert.KernelIdeal.Regions

end
-- ==== Proof.Fold.lean ====
/-
  The fold of buffer contents through the kernel's @main, read where the result needs it. Each boundary valuation is
  read at the few buffers later segments use, and written as the corresponding stage of the reference's own
  computation applied to the kernel's arguments: the row and column lists, the transposed weights' row softmax, the
  degree normalisation, and then, layer by layer, the propagated table — held by the kernel as [150000, 64] and by the
  reference as [150000, 4, 16], the same entries.
-/
import proofs.«134008_j4887672782966_2_alg».proof.Proof.Gen.KernelIdeal.Frame
import proofs.«134008_j4887672782966_2_alg».proof.Proof.Gen.ReferenceIdeal.Read
import proofs.«134008_j4887672782966_2_alg».proof.Proof.Spec
import proofs.«134008_j4887672782966_2_alg».proof.Proof.Bodies
import proofs.«134008_j4887672782966_2_alg».proof.Proof.Regions
import Idealize.ShloMosaic.Lib.StableHlo.Run

set_option maxRecDepth 16384

noncomputable section

namespace Cert.KernelIdeal.Fold

open Cert.KernelIdeal Cert.KernelIdeal.Gen Cert.Spec
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The kernel's four argument arrays on core `c`, as launched. -/
abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)

/-! ## Before the first launch: the two index lists and the transposed weights -/

theorem W1_v1 (c : Dev nD) : W1 m ρ c (Proc.devRef .tc main_v1) = Cert.ReferenceIdeal.Read.val_main_v1 (F := Ideal) (x2 m c) := by
  show StableHlo.after hostOps0 (W0 m ρ c) (Proc.devRef .tc main_v1) = _
  after_results
  try rfl

theorem W1_v3 (c : Dev nD) : W1 m ρ c (Proc.devRef .tc main_v3) = Cert.ReferenceIdeal.Read.val_main_v3 (F := Ideal) (x2 m c) := by
  show StableHlo.after hostOps0 (W0 m ρ c) (Proc.devRef .tc main_v3) = _
  after_results
  try rfl

theorem W1_v4 (c : Dev nD) : W1 m ρ c (Proc.devRef .tc main_v4)
    = transpose S1000000x4 [1, 0] (x3 m c) Facts₀.transposes_S4x1000000_S1000000x4_1_0 := by
  show StableHlo.after hostOps0 (W0 m ρ c) (Proc.devRef .tc main_v4) = _
  after_results
  try rfl

/-! ## Across the softmax launch -/

/-- The softmax launch leaves the weights' buffer at the reference's transposed softmax of the fourth argument
    (`hsm`: the reference's stage is the row softmax of the transposed argument). -/
theorem W2_v5
    (hsm : ∀ y : (⟨Cert.ReferenceIdeal.S4x1000000, .f32⟩ : BufTy).Contents (Elt Ideal),
      Cert.ReferenceIdeal.Read.val_main_v17 (F := Ideal) y
        = softmaxRows (R := 1000000) (fun i => y (ix2 ⟨(i 1).val, idx2_lt1 i⟩ ⟨(i 0).val, idx2_lt0 i⟩)))
    (c : Dev nD) :
    W2 m ρ c (Proc.devRef .tc main_v5) = Cert.ReferenceIdeal.Read.val_main_v17 (F := Ideal) (x3 m c) := by
  refine (W2_arr m ρ c 1).trans ?_
  refine (Cert.KernelIdeal.Regions.arr0 (V1 m ρ) Cert.Bodies.softmax_payload c).trans ?_
  rw [hsm]
  show softmaxRows (R := 1000000) (W1 m ρ c (Proc.devRef .tc main_v4)) = _
  rw [W1_v4, Cert.Bodies.transpose_read]

theorem W2_v1 (c : Dev nD) : W2 m ρ c (Proc.devRef .tc main_v1) = Cert.ReferenceIdeal.Read.val_main_v1 (F := Ideal) (x2 m c) :=
  (W2_of_ne m ρ c main_v1 (by decide)).trans (W1_v1 m ρ c)

theorem W2_v3 (c : Dev nD) : W2 m ρ c (Proc.devRef .tc main_v3) = Cert.ReferenceIdeal.Read.val_main_v3 (F := Ideal) (x2 m c) :=
  (W2_of_ne m ρ c main_v3 (by decide)).trans (W1_v3 m ρ c)

/-! ## The degree normalisation and the first gather -/

section Norm
variable (hsm : ∀ y : (⟨Cert.ReferenceIdeal.S4x1000000, .f32⟩ : BufTy).Contents (Elt Ideal),
      Cert.ReferenceIdeal.Read.val_main_v17 (F := Ideal) y
        = softmaxRows (R := 1000000) (fun i => y (ix2 ⟨(i 1).val, idx2_lt1 i⟩ ⟨(i 0).val, idx2_lt0 i⟩)))
include hsm

/-- Where the summed degrees are positive. -/
theorem W3_v14 (c : Dev nD) : W3 m ρ c (Proc.devRef .tc main_v14)
    = Cert.ReferenceIdeal.Read.val_main_v26 (F := Ideal) (x2 m c) (x3 m c) := by
  show StableHlo.after hostOps1 (W2 m ρ c) (Proc.devRef .tc main_v14) = _
  after_results
  rw [W2_v5 m ρ hsm c, W2_v1 m ρ c, W2_v3 m ρ c]
  rfl

/-- One over the square root of the floored degrees. -/
theorem W3_v19 (c : Dev nD) : W3 m ρ c (Proc.devRef .tc main_v19)
    = Cert.ReferenceIdeal.Read.val_main_v31 (F := Ideal) (x2 m c) (x3 m c) := by
  show StableHlo.after hostOps1 (W2 m ρ c) (Proc.devRef .tc main_v19) = _
  after_results
  rw [W2_v5 m ρ hsm c, W2_v1 m ρ c, W2_v3 m ρ c]
  rfl

theorem W3_cst4 (c : Dev nD) : W3 m ρ c (Proc.devRef .tc main_cst_4) = Cert.ReferenceIdeal.Read.val_main_cst_7 (F := Ideal) := by
  show StableHlo.after hostOps1 (W2 m ρ c) (Proc.devRef .tc main_cst_4) = _
  after_results
  try rfl

end Norm

section Norm2
variable (hsm : ∀ y : (⟨Cert.ReferenceIdeal.S4x1000000, .f32⟩ : BufTy).Contents (Elt Ideal),
      Cert.ReferenceIdeal.Read.val_main_v17 (F := Ideal) y
        = softmaxRows (R := 1000000) (fun i => y (ix2 ⟨(i 1).val, idx2_lt1 i⟩ ⟨(i 0).val, idx2_lt0 i⟩)))

/-! Buffers no operation in between writes keep their contents. -/

theorem W4_v1 (c : Dev nD) : W4 m ρ c (Proc.devRef .tc main_v1) = Cert.ReferenceIdeal.Read.val_main_v1 (F := Ideal) (x2 m c) := by
  show StableHlo.after hostOps1_1 (StableHlo.after hostOps1 (W2 m ρ c)) (Proc.devRef .tc main_v1) = _
  after_results
  exact W2_v1 m ρ c

theorem W4_v3 (c : Dev nD) : W4 m ρ c (Proc.devRef .tc main_v3) = Cert.ReferenceIdeal.Read.val_main_v3 (F := Ideal) (x2 m c) := by
  show StableHlo.after hostOps1_1 (StableHlo.after hostOps1 (W2 m ρ c)) (Proc.devRef .tc main_v3) = _
  after_results
  exact W2_v3 m ρ c

theorem W4_arg0 (c : Dev nD) : W4 m ρ c (Proc.devRef .tc main_arg0) = x0 m c := by
  show StableHlo.after hostOps1_1 (StableHlo.after hostOps1 (W2 m ρ c)) (Proc.devRef .tc main_arg0) = _
  after_results
  refine (W2_of_ne m ρ c main_arg0 (by decide)).trans ?_
  show StableHlo.after hostOps0 (W0 m ρ c) (Proc.devRef .tc main_arg0) = _
  after_results
  try rfl

theorem W4_arg1 (c : Dev nD) : W4 m ρ c (Proc.devRef .tc main_arg1) = x1 m c := by
  show StableHlo.after hostOps1_1 (StableHlo.after hostOps1 (W2 m ρ c)) (Proc.devRef .tc main_arg1) = _
  after_results
  refine (W2_of_ne m ρ c main_arg1 (by decide)).trans ?_
  show StableHlo.after hostOps0 (W0 m ρ c) (Proc.devRef .tc main_arg1) = _
  after_results
  try rfl

include hsm

set_option maxHeartbeats 4000000 in
/-- The inverse square roots of the degrees, zero where the degree is not positive. -/
theorem W4_v20 (c : Dev nD) : W4 m ρ c (Proc.devRef .tc main_v20)
    = Cert.ReferenceIdeal.Read.val_main_v32 (F := Ideal) (x2 m c) (x3 m c) := by
  show StableHlo.after hostOps1_1 (W3 m ρ c) (Proc.devRef .tc main_v20) = _
  have hread : ∀ W : Valuation τ sig (Elt Ideal), StableHlo.after (hostOps1_1 (F := Ideal)) W (Proc.devRef .tc main_v20)
      = select (W (Proc.devRef .tc main_v14)) (W (Proc.devRef .tc main_v19))
          (broadcastInDim S150000x4 ![] Facts₀.bcast_S_S150000x4 (W (Proc.devRef .tc main_cst_4))) := fun _ => rfl
  rw [hread, W3_v14 m ρ hsm c, W3_v19 m ρ hsm c, W3_cst4 m ρ hsm c]
  rfl

set_option maxHeartbeats 4000000 in
/-- The per-edge weights: the product of the two endpoints' inverse square roots. -/
theorem W5_v35 (c : Dev nD) : W5 m ρ c (Proc.devRef .tc main_v35)
    = Cert.ReferenceIdeal.Read.val_main_v47 (F := Ideal) (x2 m c) (x3 m c) := by
  show StableHlo.after hostOps1_2 (W4 m ρ c) (Proc.devRef .tc main_v35) = _
  generalize hW : W4 m ρ c = W
  after_results_simp
  subst hW
  rw [W4_v20 m ρ hsm c, W4_v1 m ρ c, W4_v3 m ρ c]
  rfl

omit hsm

set_option maxHeartbeats 4000000 in
/-- The table's rows gathered at the row list. -/
theorem W5_v43 (c : Dev nD) : W5 m ρ c (Proc.devRef .tc main_v43)
    = Host.gather gather_S150000x64_S1000000x1_S1000000x64_1_0_n_n_0_1_164
        (Cert.ReferenceIdeal.Read.val_main_v4 (F := Ideal) (x0 m c) (x1 m c)) (Cert.ReferenceIdeal.Read.val_main_v54 (F := Ideal) (x2 m c)) := by
  show StableHlo.after hostOps1_2 (W4 m ρ c) (Proc.devRef .tc main_v43) = _
  generalize hW : W4 m ρ c = W
  after_results
  subst hW
  rw [W4_v1 m ρ c, W4_arg0 m ρ c, W4_arg1 m ρ c]
  rfl

set_option maxHeartbeats 4000000 in
theorem W5_v1 (c : Dev nD) : W5 m ρ c (Proc.devRef .tc main_v1) = Cert.ReferenceIdeal.Read.val_main_v1 (F := Ideal) (x2 m c) := by
  show StableHlo.after hostOps1_2 (W4 m ρ c) (Proc.devRef .tc main_v1) = _
  generalize hW : W4 m ρ c = W
  after_results_simp
  subst hW
  exact W4_v1 m ρ c

set_option maxHeartbeats 4000000 in
theorem W5_v3 (c : Dev nD) : W5 m ρ c (Proc.devRef .tc main_v3) = Cert.ReferenceIdeal.Read.val_main_v3 (F := Ideal) (x2 m c) := by
  show StableHlo.after hostOps1_2 (W4 m ρ c) (Proc.devRef .tc main_v3) = _
  generalize hW : W4 m ρ c = W
  after_results_simp
  subst hW
  exact W4_v3 m ρ c

end Norm2

end Cert.KernelIdeal.Fold

end
-- ==== Proof.Regions1.lean ====
/-
  What each kernel launch leaves in its output array, as ONE function of the arrays it was entered with. A launch
  runs its body at 250 grid points; point t stages rows 4000 t … 4000 t + 3999 of each operand, the body computes a
  row-local function of the staged blocks, and the result is written back to the same rows of the output. The blocks
  tile the output (row e lies in the block of point e / 4000), so the output array ends holding the row-local function
  of the whole operand arrays.
-/
import proofs.«134008_j4887672782966_2_alg».proof.Proof.Gen.KernelIdeal.Frame
import proofs.«134008_j4887672782966_2_alg».proof.Proof.Regions
import Idealize.ShloMosaic.Lib.Pipeline.Value

set_option maxRecDepth 16384

noncomputable section

namespace Cert.KernelIdeal.Regions

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The first scaling launch -/

/-- Point `t` of this launch stages and writes back block `(t, 0)` of every operand. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The staged block of the rows to scale at point `t` is rows `4000 t …` of that operand. -/
theorem iblk1_0_apply (c : Dev nD) (t : Fin cfg1.N) (r : Fin 4000) (k : Fin 64) (hr : 4000 * t.val + r.val < 1000000) :
    (iblk1 V c 0 t : S4000x64.Idx → EReal) (ix2 r k) = (V c main_v43 : S1000000x64.Idx → EReal) (ix2 ⟨4000 * t.val + r.val, hr⟩ k) := by
  obtain ⟨e0, e1, -, -, -, -⟩ := idx1 t
  unfold iblk1
  rw [View.read_apply]
  show V c main_v43 _ = V c main_v43 _
  congr 1
  funext a
  apply Fin.ext
  match a with
  | ⟨0, _⟩ => show win1_0.index t 0 * 4000 + 1 * r.val = 4000 * t.val + r.val; rw [e0]; omega
  | ⟨1, _⟩ => show win1_0.index t 1 * 64 + 1 * k.val = k.val; rw [e1]; omega

/-- The staged block of weights at point `t` is rows `4000 t …` of the weights. -/
theorem iblk1_1_apply (c : Dev nD) (t : Fin cfg1.N) (r : Fin 4000) (k : Fin 4) (hr : 4000 * t.val + r.val < 1000000) :
    (iblk1 V c 1 t : S4000x4.Idx → EReal) (ix2 r k) = (V c main_v35 : S1000000x4.Idx → EReal) (ix2 ⟨4000 * t.val + r.val, hr⟩ k) := by
  obtain ⟨-, -, e2, e3, -, -⟩ := idx1 t
  unfold iblk1
  rw [View.read_apply]
  show V c main_v35 _ = V c main_v35 _
  congr 1
  funext a
  apply Fin.ext
  match a with
  | ⟨0, _⟩ => show win1_1.index t 0 * 4000 + 1 * r.val = 4000 * t.val + r.val; rw [e2]; omega
  | ⟨1, _⟩ => show win1_1.index t 1 * 4 + 1 * k.val = k.val; rw [e3]; omega

/-- What point `t` writes back is block `t` of the operand rows scaled chunk by chunk by the weights (given that the
    body stores its staged rows scaled by its staged weights: `hpay`). -/
theorem flushed1 (hpay : ∀ (x0 : Vec Ideal S4000x64 .f32) (x3 : Vec Ideal S4000x4 .f32),
      k1_pay1 (F := Ideal) x0 x3 = scaleChunks (R := 4000) x0 x3)
    (c : Dev nD) (t : Fin cfg1.N) :
    (dat1 V c).flushed 2 t = ((cfg1.win 2).blk t).view.read (Elt Ideal)
      (scaleChunks (R := 1000000) (V c main_v43 : S1000000x64.Idx → EReal) (V c main_v35 : S1000000x4.Idx → EReal)) := by
  show (cfg1.win 2).cut (grid1.coords t) ((dat1 V c).after 2 t) = _
  rw [after1_2]
  unfold out1_2
  rw [View.canon_unit_zero hz]
  simp only [View.ld_unit_zero (S := S4000x64) hz, View.ld_unit_zero (S := S4000x4) hz]
  rw [hpay]
  obtain ⟨-, -, -, -, e4, e5⟩ := idx1 t
  have hN : cfg1.N = 250 := N_1
  have ht : t.val < 250 := hN ▸ t.isLt
  funext j
  show scaleChunks (R := 4000) (iblk1 V c 0 t) (iblk1 V c 1 t) j
    = scaleChunks (R := 1000000) (V c main_v43 : S1000000x64.Idx → EReal) (V c main_v35 : S1000000x4.Idx → EReal)
        (((cfg1.win 2).blk t).view.emb j)
  refine scaleChunks_block (V c main_v43 : S1000000x64.Idx → EReal) (V c main_v35 : S1000000x4.Idx → EReal)
    (iblk1 V c 0 t) (iblk1 V c 1 t) (4000 * t.val)
    (fun r => by have := r.isLt; omega) (fun r k => iblk1_0_apply V c t r k _) (fun r k => iblk1_1_apply V c t r k _) j _ ?_ ?_
  · show win1_2.index t 0 * 4000 + 1 * (j 0).val = 4000 * t.val + (j 0).val
    rw [e4]; omega
  · show win1_2.index t 1 * 64 + 1 * (j 1).val = (j 1).val
    rw [e5]; omega

/-- Row `e` of the output lies in the block of point `e / 4000`. -/
theorem cover1 (i : S1000000x64.Idx) :
    ∃ t : Fin cfg1.N, (cfg1.win 2).flush t = true ∧ i ∈ ((cfg1.win 2).blk t).view.set := by
  have hN : cfg1.N = 250 := N_1
  have h0 : (i 0).val < 1000000 := (i 0).isLt
  have h1 : (i 1).val < 64 := (i 1).isLt
  let t : Fin cfg1.N := ⟨(i 0).val / 4000, by rw [hN]; omega⟩
  obtain ⟨-, -, -, -, e4, e5⟩ := idx1 t
  have hv : t.val = (i 0).val / 4000 := rfl
  refine ⟨t, flush1_2 t, ?_⟩
  show i ∈ ((View.whole main_v44).slice (win1_2.rect t)).set
  rw [View.set_slice_whole, Rect.mem_set_unit]
  intro a
  match a with
  | ⟨0, _⟩ =>
    show win1_2.index t 0 * 4000 ≤ (i 0).val ∧ (i 0).val < win1_2.index t 0 * 4000 + 4000
    rw [e4, hv]; omega
  | ⟨1, _⟩ =>
    show win1_2.index t 1 * 64 ≤ (i 1).val ∧ (i 1).val < win1_2.index t 1 * 64 + 64
    rw [e5]; omega

/-- This launch leaves its output array at its first operand's rows scaled chunk by chunk by its second's. -/
theorem arr1 (hpay : ∀ (x0 : Vec Ideal S4000x64 .f32) (x3 : Vec Ideal S4000x4 .f32),
      k1_pay1 (F := Ideal) x0 x3 = scaleChunks (R := 4000) x0 x3) (c : Dev nD) :
    (dat1 V c).arrAt 2 cfg1.N
      = scaleChunks (R := 1000000) (V c main_v43 : S1000000x64.Idx → EReal) (V c main_v35 : S1000000x4.Idx → EReal) :=
  (dat1 V c).arrAt_eq_of_cover 2 _ (fun t _ => flushed1 V hpay c t) (cover1)

end Cert.KernelIdeal.Regions

end
-- ==== Proof.Regions2.lean ====
/-
  What each kernel launch leaves in its output array, as ONE function of the arrays it was entered with. A launch
  runs its body at 250 grid points; point t stages rows 4000 t … 4000 t + 3999 of each operand, the body computes a
  row-local function of the staged blocks, and the result is written back to the same rows of the output. The blocks
  tile the output (row e lies in the block of point e / 4000), so the output array ends holding the row-local function
  of the whole operand arrays.
-/
import proofs.«134008_j4887672782966_2_alg».proof.Proof.Gen.KernelIdeal.Frame
import proofs.«134008_j4887672782966_2_alg».proof.Proof.Regions
import Idealize.ShloMosaic.Lib.Pipeline.Value

set_option maxRecDepth 16384

noncomputable section

namespace Cert.KernelIdeal.Regions

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The second scaling launch -/

/-- Point `t` of this launch stages and writes back block `(t, 0)` of every operand. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The staged block of the rows to scale at point `t` is rows `4000 t …` of that operand. -/
theorem iblk2_0_apply (c : Dev nD) (t : Fin cfg2.N) (r : Fin 4000) (k : Fin 64) (hr : 4000 * t.val + r.val < 1000000) :
    (iblk2 V c 0 t : S4000x64.Idx → EReal) (ix2 r k) = (V c main_v54 : S1000000x64.Idx → EReal) (ix2 ⟨4000 * t.val + r.val, hr⟩ k) := by
  obtain ⟨e0, e1, -, -, -, -⟩ := idx2 t
  unfold iblk2
  rw [View.read_apply]
  show V c main_v54 _ = V c main_v54 _
  congr 1
  funext a
  apply Fin.ext
  match a with
  | ⟨0, _⟩ => show win2_0.index t 0 * 4000 + 1 * r.val = 4000 * t.val + r.val; rw [e0]; omega
  | ⟨1, _⟩ => show win2_0.index t 1 * 64 + 1 * k.val = k.val; rw [e1]; omega

/-- The staged block of weights at point `t` is rows `4000 t …` of the weights. -/
theorem iblk2_1_apply (c : Dev nD) (t : Fin cfg2.N) (r : Fin 4000) (k : Fin 4) (hr : 4000 * t.val + r.val < 1000000) :
    (iblk2 V c 1 t : S4000x4.Idx → EReal) (ix2 r k) = (V c main_v35 : S1000000x4.Idx → EReal) (ix2 ⟨4000 * t.val + r.val, hr⟩ k) := by
  obtain ⟨-, -, e2, e3, -, -⟩ := idx2 t
  unfold iblk2
  rw [View.read_apply]
  show V c main_v35 _ = V c main_v35 _
  congr 1
  funext a
  apply Fin.ext
  match a with
  | ⟨0, _⟩ => show win2_1.index t 0 * 4000 + 1 * r.val = 4000 * t.val + r.val; rw [e2]; omega
  | ⟨1, _⟩ => show win2_1.index t 1 * 4 + 1 * k.val = k.val; rw [e3]; omega

/-- What point `t` writes back is block `t` of the operand rows scaled chunk by chunk by the weights (given that the
    body stores its staged rows scaled by its staged weights: `hpay`). -/
theorem flushed2 (hpay : ∀ (x0 : Vec Ideal S4000x64 .f32) (x3 : Vec Ideal S4000x4 .f32),
      k2_pay1 (F := Ideal) x0 x3 = scaleChunks (R := 4000) x0 x3)
    (c : Dev nD) (t : Fin cfg2.N) :
    (dat2 V c).flushed 2 t = ((cfg2.win 2).blk t).view.read (Elt Ideal)
      (scaleChunks (R := 1000000) (V c main_v54 : S1000000x64.Idx → EReal) (V c main_v35 : S1000000x4.Idx → EReal)) := by
  show (cfg2.win 2).cut (grid2.coords t) ((dat2 V c).after 2 t) = _
  rw [after2_2]
  unfold out2_2
  rw [View.canon_unit_zero hz]
  simp only [View.ld_unit_zero (S := S4000x64) hz, View.ld_unit_zero (S := S4000x4) hz]
  rw [hpay]
  obtain ⟨-, -, -, -, e4, e5⟩ := idx2 t
  have hN : cfg2.N = 250 := N_2
  have ht : t.val < 250 := hN ▸ t.isLt
  funext j
  show scaleChunks (R := 4000) (iblk2 V c 0 t) (iblk2 V c 1 t) j
    = scaleChunks (R := 1000000) (V c main_v54 : S1000000x64.Idx → EReal) (V c main_v35 : S1000000x4.Idx → EReal)
        (((cfg2.win 2).blk t).view.emb j)
  refine scaleChunks_block (V c main_v54 : S1000000x64.Idx → EReal) (V c main_v35 : S1000000x4.Idx → EReal)
    (iblk2 V c 0 t) (iblk2 V c 1 t) (4000 * t.val)
    (fun r => by have := r.isLt; omega) (fun r k => iblk2_0_apply V c t r k _) (fun r k => iblk2_1_apply V c t r k _) j _ ?_ ?_
  · show win2_2.index t 0 * 4000 + 1 * (j 0).val = 4000 * t.val + (j 0).val
    rw [e4]; omega
  · show win2_2.index t 1 * 64 + 1 * (j 1).val = (j 1).val
    rw [e5]; omega

/-- Row `e` of the output lies in the block of point `e / 4000`. -/
theorem cover2 (i : S1000000x64.Idx) :
    ∃ t : Fin cfg2.N, (cfg2.win 2).flush t = true ∧ i ∈ ((cfg2.win 2).blk t).view.set := by
  have hN : cfg2.N = 250 := N_2
  have h0 : (i 0).val < 1000000 := (i 0).isLt
  have h1 : (i 1).val < 64 := (i 1).isLt
  let t : Fin cfg2.N := ⟨(i 0).val / 4000, by rw [hN]; omega⟩
  obtain ⟨-, -, -, -, e4, e5⟩ := idx2 t
  have hv : t.val = (i 0).val / 4000 := rfl
  refine ⟨t, flush2_2 t, ?_⟩
  show i ∈ ((View.whole main_v55).slice (win2_2.rect t)).set
  rw [View.set_slice_whole, Rect.mem_set_unit]
  intro a
  match a with
  | ⟨0, _⟩ =>
    show win2_2.index t 0 * 4000 ≤ (i 0).val ∧ (i 0).val < win2_2.index t 0 * 4000 + 4000
    rw [e4, hv]; omega
  | ⟨1, _⟩ =>
    show win2_2.index t 1 * 64 ≤ (i 1).val ∧ (i 1).val < win2_2.index t 1 * 64 + 64
    rw [e5]; omega

/-- This launch leaves its output array at its first operand's rows scaled chunk by chunk by its second's. -/
theorem arr2 (hpay : ∀ (x0 : Vec Ideal S4000x64 .f32) (x3 : Vec Ideal S4000x4 .f32),
      k2_pay1 (F := Ideal) x0 x3 = scaleChunks (R := 4000) x0 x3) (c : Dev nD) :
    (dat2 V c).arrAt 2 cfg2.N
      = scaleChunks (R := 1000000) (V c main_v54 : S1000000x64.Idx → EReal) (V c main_v35 : S1000000x4.Idx → EReal) :=
  (dat2 V c).arrAt_eq_of_cover 2 _ (fun t _ => flushed2 V hpay c t) (cover2)

end Cert.KernelIdeal.Regions

end
-- ==== Proof.Regions3.lean ====
/-
  What each kernel launch leaves in its output array, as ONE function of the arrays it was entered with. A launch
  runs its body at 250 grid points; point t stages rows 4000 t … 4000 t + 3999 of each operand, the body computes a
  row-local function of the staged blocks, and the result is written back to the same rows of the output. The blocks
  tile the output (row e lies in the block of point e / 4000), so the output array ends holding the row-local function
  of the whole operand arrays.
-/
import proofs.«134008_j4887672782966_2_alg».proof.Proof.Gen.KernelIdeal.Frame
import proofs.«134008_j4887672782966_2_alg».proof.Proof.Regions
import Idealize.ShloMosaic.Lib.Pipeline.Value

set_option maxRecDepth 16384

noncomputable section

namespace Cert.KernelIdeal.Regions

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The third scaling launch -/

/-- Point `t` of this launch stages and writes back block `(t, 0)` of every operand. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The staged block of the rows to scale at point `t` is rows `4000 t …` of that operand. -/
theorem iblk3_0_apply (c : Dev nD) (t : Fin cfg3.N) (r : Fin 4000) (k : Fin 64) (hr : 4000 * t.val + r.val < 1000000) :
    (iblk3 V c 0 t : S4000x64.Idx → EReal) (ix2 r k) = (V c main_v65 : S1000000x64.Idx → EReal) (ix2 ⟨4000 * t.val + r.val, hr⟩ k) := by
  obtain ⟨e0, e1, -, -, -, -⟩ := idx3 t
  unfold iblk3
  rw [View.read_apply]
  show V c main_v65 _ = V c main_v65 _
  congr 1
  funext a
  apply Fin.ext
  match a with
  | ⟨0, _⟩ => show win3_0.index t 0 * 4000 + 1 * r.val = 4000 * t.val + r.val; rw [e0]; omega
  | ⟨1, _⟩ => show win3_0.index t 1 * 64 + 1 * k.val = k.val; rw [e1]; omega

/-- The staged block of weights at point `t` is rows `4000 t …` of the weights. -/
theorem iblk3_1_apply (c : Dev nD) (t : Fin cfg3.N) (r : Fin 4000) (k : Fin 4) (hr : 4000 * t.val + r.val < 1000000) :
    (iblk3 V c 1 t : S4000x4.Idx → EReal) (ix2 r k) = (V c main_v35 : S1000000x4.Idx → EReal) (ix2 ⟨4000 * t.val + r.val, hr⟩ k) := by
  obtain ⟨-, -, e2, e3, -, -⟩ := idx3 t
  unfold iblk3
  rw [View.read_apply]
  show V c main_v35 _ = V c main_v35 _
  congr 1
  funext a
  apply Fin.ext
  match a with
  | ⟨0, _⟩ => show win3_1.index t 0 * 4000 + 1 * r.val = 4000 * t.val + r.val; rw [e2]; omega
  | ⟨1, _⟩ => show win3_1.index t 1 * 4 + 1 * k.val = k.val; rw [e3]; omega

/-- What point `t` writes back is block `t` of the operand rows scaled chunk by chunk by the weights (given that the
    body stores its staged rows scaled by its staged weights: `hpay`). -/
theorem flushed3 (hpay : ∀ (x0 : Vec Ideal S4000x64 .f32) (x3 : Vec Ideal S4000x4 .f32),
      k3_pay1 (F := Ideal) x0 x3 = scaleChunks (R := 4000) x0 x3)
    (c : Dev nD) (t : Fin cfg3.N) :
    (dat3 V c).flushed 2 t = ((cfg3.win 2).blk t).view.read (Elt Ideal)
      (scaleChunks (R := 1000000) (V c main_v65 : S1000000x64.Idx → EReal) (V c main_v35 : S1000000x4.Idx → EReal)) := by
  show (cfg3.win 2).cut (grid3.coords t) ((dat3 V c).after 2 t) = _
  rw [after3_2]
  unfold out3_2
  rw [View.canon_unit_zero hz]
  simp only [View.ld_unit_zero (S := S4000x64) hz, View.ld_unit_zero (S := S4000x4) hz]
  rw [hpay]
  obtain ⟨-, -, -, -, e4, e5⟩ := idx3 t
  have hN : cfg3.N = 250 := N_3
  have ht : t.val < 250 := hN ▸ t.isLt
  funext j
  show scaleChunks (R := 4000) (iblk3 V c 0 t) (iblk3 V c 1 t) j
    = scaleChunks (R := 1000000) (V c main_v65 : S1000000x64.Idx → EReal) (V c main_v35 : S1000000x4.Idx → EReal)
        (((cfg3.win 2).blk t).view.emb j)
  refine scaleChunks_block (V c main_v65 : S1000000x64.Idx → EReal) (V c main_v35 : S1000000x4.Idx → EReal)
    (iblk3 V c 0 t) (iblk3 V c 1 t) (4000 * t.val)
    (fun r => by have := r.isLt; omega) (fun r k => iblk3_0_apply V c t r k _) (fun r k => iblk3_1_apply V c t r k _) j _ ?_ ?_
  · show win3_2.index t 0 * 4000 + 1 * (j 0).val = 4000 * t.val + (j 0).val
    rw [e4]; omega
  · show win3_2.index t 1 * 64 + 1 * (j 1).val = (j 1).val
    rw [e5]; omega

/-- Row `e` of the output lies in the block of point `e / 4000`. -/
theorem cover3 (i : S1000000x64.Idx) :
    ∃ t : Fin cfg3.N, (cfg3.win 2).flush t = true ∧ i ∈ ((cfg3.win 2).blk t).view.set := by
  have hN : cfg3.N = 250 := N_3
  have h0 : (i 0).val < 1000000 := (i 0).isLt
  have h1 : (i 1).val < 64 := (i 1).isLt
  let t : Fin cfg3.N := ⟨(i 0).val / 4000, by rw [hN]; omega⟩
  obtain ⟨-, -, -, -, e4, e5⟩ := idx3 t
  have hv : t.val = (i 0).val / 4000 := rfl
  refine ⟨t, flush3_2 t, ?_⟩
  show i ∈ ((View.whole main_v66).slice (win3_2.rect t)).set
  rw [View.set_slice_whole, Rect.mem_set_unit]
  intro a
  match a with
  | ⟨0, _⟩ =>
    show win3_2.index t 0 * 4000 ≤ (i 0).val ∧ (i 0).val < win3_2.index t 0 * 4000 + 4000
    rw [e4, hv]; omega
  | ⟨1, _⟩ =>
    show win3_2.index t 1 * 64 ≤ (i 1).val ∧ (i 1).val < win3_2.index t 1 * 64 + 64
    rw [e5]; omega

/-- This launch leaves its output array at its first operand's rows scaled chunk by chunk by its second's. -/
theorem arr3 (hpay : ∀ (x0 : Vec Ideal S4000x64 .f32) (x3 : Vec Ideal S4000x4 .f32),
      k3_pay1 (F := Ideal) x0 x3 = scaleChunks (R := 4000) x0 x3) (c : Dev nD) :
    (dat3 V c).arrAt 2 cfg3.N
      = scaleChunks (R := 1000000) (V c main_v65 : S1000000x64.Idx → EReal) (V c main_v35 : S1000000x4.Idx → EReal) :=
  (dat3 V c).arrAt_eq_of_cover 2 _ (fun t _ => flushed3 V hpay c t) (cover3)

end Cert.KernelIdeal.Regions

end
-- ==== Proof.FoldLayers.lean ====
/-
  The fold of buffer contents continued through the three propagation layers: each scaling launch leaves the gathered
  rows scaled by the edge weights, each following host stretch adds them into a zero table at the column list and
  gathers the new table's rows again, and the last stretch reshapes the table to [150000, 4, 16].
-/
import proofs.«134008_j4887672782966_2_alg».proof.Proof.Fold
import proofs.«134008_j4887672782966_2_alg».proof.Proof.Regions1
import proofs.«134008_j4887672782966_2_alg».proof.Proof.Regions2
import proofs.«134008_j4887672782966_2_alg».proof.Proof.Regions3

set_option maxRecDepth 16384

noncomputable section

namespace Cert.KernelIdeal.Fold

open Cert.KernelIdeal Cert.KernelIdeal.Gen Cert.Spec
open Idealize.ShloMosaic Idealize.ShloMosaic.TcCoe Idealize.SL.Sem Idealize.ShloMosaic.ValueIdx Idealize.ShloMosaic.StableHlo

/-- The weights are an input of this launch: no grid point writes their window back, so their array is kept. -/
theorem weights_kept1 (V : (c : Dev nD) → (b : Ref sig .tc) → Buf (Elt Ideal) ((c : Thread nD τ).loc b)) (c : Dev nD) :
    (dat1 V c).arrAt 1 cfg1.N = V c main_v35 := by
  have hnf : ∀ t : Fin cfg1.N, (cfg1.win 1).flush t = false :=
    (by decide +kernel : ∀ t : Fin grid1.N, win1_1.flush t = false)
  funext i
  refine ((dat1 V c).arrAt_apply_of_forall_not_mem 1 cfg1.N i fun t _ hf => ?_).trans ?_
  · rw [hnf t] at hf; exact absurd hf (by decide)
  · exact congrFun (A_eq1 V c 1) i

/-- The weights are an input of this launch: no grid point writes their window back, so their array is kept. -/
theorem weights_kept2 (V : (c : Dev nD) → (b : Ref sig .tc) → Buf (Elt Ideal) ((c : Thread nD τ).loc b)) (c : Dev nD) :
    (dat2 V c).arrAt 1 cfg2.N = V c main_v35 := by
  have hnf : ∀ t : Fin cfg2.N, (cfg2.win 1).flush t = false :=
    (by decide +kernel : ∀ t : Fin grid2.N, win2_1.flush t = false)
  funext i
  refine ((dat2 V c).arrAt_apply_of_forall_not_mem 1 cfg2.N i fun t _ hf => ?_).trans ?_
  · rw [hnf t] at hf; exact absurd hf (by decide)
  · exact congrFun (A_eq2 V c 1) i

variable (m : (ℓ : Loc nD τ sig) → Buf (Elt Ideal) ℓ) (ρ : Dev nD → PrngReg)

section Layers
variable (hsm : ∀ y : (⟨Cert.ReferenceIdeal.S4x1000000, .f32⟩ : BufTy).Contents (Elt Ideal),
      Cert.ReferenceIdeal.Read.val_main_v17 (F := Ideal) y
        = softmaxRows (R := 1000000) (fun i => y (ix2 ⟨(i 1).val, idx2_lt1 i⟩ ⟨(i 0).val, idx2_lt0 i⟩)))

/-- One layer on the table held as [150000, 64]: gather the rows at the row list, scale each chunk of sixteen by the
    edge's weight for the chunk, and add the rows into a zero table at the column list. -/
abbrev kL (c : Dev nD) (X : S150000x64.Idx → EReal) : S150000x64.Idx → EReal :=
  Host.scatterAdd (F := Ideal) (φ := .f32) scatter_S150000x64_S1000000x1_S1000000x64_1_0_0_1
    (broadcastInDim S150000x64 ![] Facts₀.bcast_S_S150000x64 (constant (F := Ideal) S_ .f32 0x00000000#32))
    (broadcastInDim S1000000x1 ![0] Facts₀.bcast_S1000000_S1000000x1_0 (Cert.ReferenceIdeal.Read.val_main_v3 (F := Ideal) (x2 m c)))
    (scaleChunks (Host.gather gather_S150000x64_S1000000x1_S1000000x64_1_0_n_n_0_1_164 X
        (Cert.ReferenceIdeal.Read.val_main_v54 (F := Ideal) (x2 m c)))
      (Cert.ReferenceIdeal.Read.val_main_v47 (F := Ideal) (x2 m c) (x3 m c)))

/-- The concatenated table the layers start from. -/
abbrev T0 (c : Dev nD) : S150000x64.Idx → EReal := Cert.ReferenceIdeal.Read.val_main_v4 (F := Ideal) (x0 m c) (x1 m c)

/-! ### Layer 1 -/

theorem W6_v1 (c : Dev nD) : W6 m ρ c (Proc.devRef .tc main_v1) = Cert.ReferenceIdeal.Read.val_main_v1 (F := Ideal) (x2 m c) :=
  (W6_of_ne m ρ c main_v1 (by decide)).trans (W5_v1 m ρ c)
theorem W6_v3 (c : Dev nD) : W6 m ρ c (Proc.devRef .tc main_v3) = Cert.ReferenceIdeal.Read.val_main_v3 (F := Ideal) (x2 m c) :=
  (W6_of_ne m ρ c main_v3 (by decide)).trans (W5_v3 m ρ c)

include hsm

theorem W6_v35 (c : Dev nD) : W6 m ρ c (Proc.devRef .tc main_v35) = Cert.ReferenceIdeal.Read.val_main_v47 (F := Ideal) (x2 m c) (x3 m c) :=
  (W6_arr m ρ c 1).trans ((weights_kept1 (V5 m ρ) c).trans (W5_v35 m ρ hsm c))

/-- The first scaling launch leaves the gathered rows scaled by the weights. -/
theorem W6_v44 (c : Dev nD) : W6 m ρ c (Proc.devRef .tc main_v44)
    = scaleChunks (R := 1000000) (Host.gather gather_S150000x64_S1000000x1_S1000000x64_1_0_n_n_0_1_164 (T0 m c)
        (Cert.ReferenceIdeal.Read.val_main_v54 (F := Ideal) (x2 m c)))
      (Cert.ReferenceIdeal.Read.val_main_v47 (F := Ideal) (x2 m c) (x3 m c)) := by
  refine (W6_arr m ρ c 2).trans ?_
  refine (Cert.KernelIdeal.Regions.arr1 (V5 m ρ) Cert.Bodies.scale_payload c).trans ?_
  show scaleChunks (R := 1000000) (W5 m ρ c (Proc.devRef .tc main_v43)) (W5 m ρ c (Proc.devRef .tc main_v35)) = _
  rw [W5_v43 m ρ c, W5_v35 m ρ hsm c]

set_option maxHeartbeats 4000000 in
/-- After the first layer's scatter the table is one layer of the start table. -/
theorem W7_v47 (c : Dev nD) : W7 m ρ c (Proc.devRef .tc main_v47) = kL m c (T0 m c) := by
  show StableHlo.after hostOps2 (W6 m ρ c) (Proc.devRef .tc main_v47) = _
  generalize hW : W6 m ρ c = W
  after_results_simp
  subst hW
  rw [W6_v3 m ρ c, W6_v44 m ρ hsm c]
  try rfl

set_option maxHeartbeats 4000000 in
theorem W7_v54 (c : Dev nD) : W7 m ρ c (Proc.devRef .tc main_v54)
    = Host.gather gather_S150000x64_S1000000x1_S1000000x64_1_0_n_n_0_1_164 (kL m c (T0 m c))
        (Cert.ReferenceIdeal.Read.val_main_v54 (F := Ideal) (x2 m c)) := by
  show StableHlo.after hostOps2 (W6 m ρ c) (Proc.devRef .tc main_v54) = _
  generalize hW : W6 m ρ c = W
  after_results_simp
  subst hW
  rw [W6_v1 m ρ c, W6_v3 m ρ c, W6_v44 m ρ hsm c]
  rfl

omit hsm
set_option maxHeartbeats 4000000 in
theorem W7_v1 (c : Dev nD) : W7 m ρ c (Proc.devRef .tc main_v1) = Cert.ReferenceIdeal.Read.val_main_v1 (F := Ideal) (x2 m c) := by
  show StableHlo.after hostOps2 (W6 m ρ c) (Proc.devRef .tc main_v1) = _
  generalize hW : W6 m ρ c = W
  after_results_simp
  subst hW
  exact W6_v1 m ρ c
set_option maxHeartbeats 4000000 in
theorem W7_v3 (c : Dev nD) : W7 m ρ c (Proc.devRef .tc main_v3) = Cert.ReferenceIdeal.Read.val_main_v3 (F := Ideal) (x2 m c) := by
  show StableHlo.after hostOps2 (W6 m ρ c) (Proc.devRef .tc main_v3) = _
  generalize hW : W6 m ρ c = W
  after_results_simp
  subst hW
  exact W6_v3 m ρ c
include hsm
set_option maxHeartbeats 4000000 in
theorem W7_v35 (c : Dev nD) : W7 m ρ c (Proc.devRef .tc main_v35) = Cert.ReferenceIdeal.Read.val_main_v47 (F := Ideal) (x2 m c) (x3 m c) := by
  show StableHlo.after hostOps2 (W6 m ρ c) (Proc.devRef .tc main_v35) = _
  generalize hW : W6 m ρ c = W
  after_results_simp
  subst hW
  exact W6_v35 m ρ hsm c

/-! ### Layer 2 -/

omit hsm
theorem W8_v1 (c : Dev nD) : W8 m ρ c (Proc.devRef .tc main_v1) = Cert.ReferenceIdeal.Read.val_main_v1 (F := Ideal) (x2 m c) :=
  (W8_of_ne m ρ c main_v1 (by decide)).trans (W7_v1 m ρ c)
theorem W8_v3 (c : Dev nD) : W8 m ρ c (Proc.devRef .tc main_v3) = Cert.ReferenceIdeal.Read.val_main_v3 (F := Ideal) (x2 m c) :=
  (W8_of_ne m ρ c main_v3 (by decide)).trans (W7_v3 m ρ c)
include hsm
theorem W8_v35 (c : Dev nD) : W8 m ρ c (Proc.devRef .tc main_v35) = Cert.ReferenceIdeal.Read.val_main_v47 (F := Ideal) (x2 m c) (x3 m c) :=
  (W8_arr m ρ c 1).trans ((weights_kept2 (V7 m ρ) c).trans (W7_v35 m ρ hsm c))

theorem W8_v55 (c : Dev nD) : W8 m ρ c (Proc.devRef .tc main_v55)
    = scaleChunks (R := 1000000) (Host.gather gather_S150000x64_S1000000x1_S1000000x64_1_0_n_n_0_1_164 (kL m c (T0 m c))
        (Cert.ReferenceIdeal.Read.val_main_v54 (F := Ideal) (x2 m c)))
      (Cert.ReferenceIdeal.Read.val_main_v47 (F := Ideal) (x2 m c) (x3 m c)) := by
  refine (W8_arr m ρ c 2).trans ?_
  refine (Cert.KernelIdeal.Regions.arr2 (V7 m ρ) Cert.Bodies.scale_payload2 c).trans ?_
  show scaleChunks (R := 1000000) (W7 m ρ c (Proc.devRef .tc main_v54)) (W7 m ρ c (Proc.devRef .tc main_v35)) = _
  rw [W7_v54 m ρ hsm c, W7_v35 m ρ hsm c]

set_option maxHeartbeats 4000000 in
theorem W9_v58 (c : Dev nD) : W9 m ρ c (Proc.devRef .tc main_v58) = kL m c (kL m c (T0 m c)) := by
  show StableHlo.after hostOps3 (W8 m ρ c) (Proc.devRef .tc main_v58) = _
  generalize hW : W8 m ρ c = W
  after_results_simp
  subst hW
  rw [W8_v3 m ρ c, W8_v55 m ρ hsm c]
  try rfl

set_option maxHeartbeats 4000000 in
theorem W9_v65 (c : Dev nD) : W9 m ρ c (Proc.devRef .tc main_v65)
    = Host.gather gather_S150000x64_S1000000x1_S1000000x64_1_0_n_n_0_1_164 (kL m c (kL m c (T0 m c)))
        (Cert.ReferenceIdeal.Read.val_main_v54 (F := Ideal) (x2 m c)) := by
  show StableHlo.after hostOps3 (W8 m ρ c) (Proc.devRef .tc main_v65) = _
  generalize hW : W8 m ρ c = W
  after_results_simp
  subst hW
  rw [W8_v1 m ρ c, W8_v3 m ρ c, W8_v55 m ρ hsm c]
  rfl

omit hsm
set_option maxHeartbeats 4000000 in
theorem W9_v3 (c : Dev nD) : W9 m ρ c (Proc.devRef .tc main_v3) = Cert.ReferenceIdeal.Read.val_main_v3 (F := Ideal) (x2 m c) := by
  show StableHlo.after hostOps3 (W8 m ρ c) (Proc.devRef .tc main_v3) = _
  generalize hW : W8 m ρ c = W
  after_results_simp
  subst hW
  exact W8_v3 m ρ c
include hsm
set_option maxHeartbeats 4000000 in
theorem W9_v35 (c : Dev nD) : W9 m ρ c (Proc.devRef .tc main_v35) = Cert.ReferenceIdeal.Read.val_main_v47 (F := Ideal) (x2 m c) (x3 m c) := by
  show StableHlo.after hostOps3 (W8 m ρ c) (Proc.devRef .tc main_v35) = _
  generalize hW : W8 m ρ c = W
  after_results_simp
  subst hW
  exact W8_v35 m ρ hsm c

/-! ### Layer 3 and the result -/

omit hsm
theorem W10_v3 (c : Dev nD) : W10 m ρ c (Proc.devRef .tc main_v3) = Cert.ReferenceIdeal.Read.val_main_v3 (F := Ideal) (x2 m c) :=
  (W10_of_ne m ρ c main_v3 (by decide)).trans (W9_v3 m ρ c)
include hsm

theorem W10_v66 (c : Dev nD) : W10 m ρ c (Proc.devRef .tc main_v66)
    = scaleChunks (R := 1000000) (Host.gather gather_S150000x64_S1000000x1_S1000000x64_1_0_n_n_0_1_164 (kL m c (kL m c (T0 m c)))
        (Cert.ReferenceIdeal.Read.val_main_v54 (F := Ideal) (x2 m c)))
      (Cert.ReferenceIdeal.Read.val_main_v47 (F := Ideal) (x2 m c) (x3 m c)) := by
  refine (W10_arr m ρ c 2).trans ?_
  refine (Cert.KernelIdeal.Regions.arr3 (V9 m ρ) Cert.Bodies.scale_payload3 c).trans ?_
  show scaleChunks (R := 1000000) (W9 m ρ c (Proc.devRef .tc main_v65)) (W9 m ρ c (Proc.devRef .tc main_v35)) = _
  rw [W9_v65 m ρ hsm c, W9_v35 m ρ hsm c]

/-- THE RESULT BUFFER at the end of the fold: three layers of the start table, reshaped to [150000, 4, 16]. -/
theorem W11_v70 (c : Dev nD) : W11 m ρ c (Proc.devRef .tc main_v70)
    = shapeCast S150000x4x16 (kL m c (kL m c (kL m c (T0 m c)))) Facts₀.shapeCasts_S150000x64_S150000x4x16 := by
  show StableHlo.after hostOps4 (W10 m ρ c) (Proc.devRef .tc main_v70) = _
  after_results
  rw [W10_v3 m ρ c, W10_v66 m ρ hsm c]
  try rfl

end Layers

end Cert.KernelIdeal.Fold

end
-- ==== Proof.RefSoftmax.lean ====
/-
  The reference's softmax of the [4, 1000000] weights down their first axis, transposed to [1000000, 4], read index
  by index on the extended reals: it is the row softmax of the transposed weights.
-/
import proofs.«134008_j4887672782966_2_alg».proof.Proof.Gen.ReferenceIdeal.Read
import proofs.«134008_j4887672782966_2_alg».proof.Proof.Spec
import Idealize.ShloMosaic.Lib.ValueIdx
import Idealize.ShloMosaic.Lib.Pipeline.Value
import Idealize.ShloMosaic.PureOps.Ideal.Laws

noncomputable section

open scoped BigOperators

namespace Cert.RefSoftmax

open Idealize.ShloMosaic Idealize.ShloMosaic.ValueIdx
open Cert.ReferenceIdeal Cert.ReferenceIdeal.Gen Cert.ReferenceIdeal.Read

/-- The weights transposed: entry (e, k) is entry (k, e). -/
abbrev transposed (x3 : (⟨S4x1000000, .f32⟩ : BufTy).Contents (Elt Ideal)) : (⟨2, ![1000000, 4]⟩ : Shape).Idx → EReal :=
  fun i => x3 (ix2 ⟨(i 1).val, idx2_lt1 i⟩ ⟨(i 0).val, idx2_lt0 i⟩)

/-- The index a reduction over the first axis of a [4, 1000000] array inserts coordinate k into, at column e, is
    (k, e). -/
theorem lift_first (h : (⟨2, ![4, 1000000]⟩ : Shape).Reduces [0] (⟨1, ![1000000]⟩ : Shape)) (e : Fin 1000000)
    (k : Fin ((⟨2, ![4, 1000000]⟩ : Shape).size 0)) : h.lift (ix1 e) k = ix2 (⟨k.val, k.isLt⟩ : Fin 4) e := by
  funext a; apply Fin.ext
  match a with
  | ⟨0, _⟩ => rfl
  | ⟨1, _⟩ => rfl

/-- From -∞ the reference's maximum down the first axis is, at column e, the row maximum of row e of the transposed
    weights. -/
theorem max_read (x3 : (⟨S4x1000000, .f32⟩ : BufTy).Contents (Elt Ideal)) (e : Fin 1000000) :
    val_main_v6 (F := Ideal) x3 (ix1 e) = Cert.Spec.rowMax (R := 1000000) (transposed x3) e := by
  have hr : S4x1000000.Reduces [0] S1000000 :=
    ⟨reducesTo_S4x1000000_S1000000_d0.1, Nat.one_pos, reducesTo_S4x1000000_S1000000_d0.2⟩
  have key := Host.reduce_eq_fold_single (α := Ideal .f32) (s := S4x1000000) (t := S1000000) (a := (0 : Fin 2)) (u := S_)
    (FloatOps.maximumf (F := Ideal) (φ := .f32)) x3 (val_main_cst (F := Ideal)) reducesTo_S4x1000000_S1000000_d0 hr h_S_ (ix1 e)
  unfold val_main_v6
  refine key.trans ?_
  unfold Cert.Spec.rowMax
  have hf : (x3 ∘ hr.lift (ix1 e)) = fun k : Fin 4 => transposed x3 (ix2 e k) :=
    funext fun k => congrArg x3 (lift_first hr e k)
  exact congrArg (fun f => Finset.fold max (Ideal.ofBits .f32 0xFF800000#32) f (Finset.univ : Finset (Fin 4))) hf

/-- The maximum the reference subtracts, read at (k, e): the row maximum of row e of the transposed weights (the extra
    maximum with -∞ changes nothing). -/
theorem shift_read (x3 : (⟨S4x1000000, .f32⟩ : BufTy).Contents (Elt Ideal)) (k : Fin 4) (e : Fin 1000000) :
    val_main_v10 (F := Ideal) x3 (ix2 k e) = Cert.Spec.rowMax (R := 1000000) (transposed x3) e := by
  rw [val_main_v10_apply, val_main_v9_apply, val_main_v8_apply, val_main_v7_apply, val_main_cst_0_apply]
  have hi : idx_main_v9 (idx_main_v10 (ix2 k e)) = ix1 e :=
    funext fun a => Fin.ext (by match a with | ⟨0, _⟩ => rfl)
  rw [hi, max_read x3 e]
  show max (Ideal.ofBits .f32 0xFF800000#32) _ = _
  have hbot : Ideal.ofBits .f32 0xFF800000#32 = ⊥ := by simp [Ideal.ofBits, Ideal.ieee]
  rw [hbot]
  exact max_eq_right bot_le

/-- The reference's exponentials, read at (k, e): the shifted exponential of entry (e, k) of the transposed weights. -/
theorem exp_read (x3 : (⟨S4x1000000, .f32⟩ : BufTy).Contents (Elt Ideal)) (k : Fin 4) (e : Fin 1000000) :
    val_main_v12 (F := Ideal) x3 (ix2 k e) = Cert.Spec.rowExp (R := 1000000) (transposed x3) e k := by
  rw [val_main_v12_apply, val_main_v11_apply, shift_read x3 k e]
  rfl

/-- The sum the reference divides by, read at (k, e): the sum of the shifted exponentials of row e. -/
theorem sum_read (x3 : (⟨S4x1000000, .f32⟩ : BufTy).Contents (Elt Ideal)) (k : Fin 4) (e : Fin 1000000) :
    val_main_v15 (F := Ideal) x3 (ix2 k e) = ∑ k' : Fin 4, Cert.Spec.rowExp (R := 1000000) (transposed x3) e k' := by
  rw [val_main_v15_apply, val_main_v14_apply, val_main_v13_apply, val_main_cst_1_apply]
  show Ideal.ofBits .f32 0x00000000#32 + _ = _
  rw [Ideal.ofBits_zero_f32, zero_add]
  refine Finset.sum_congr rfl fun k' _ => ?_
  have hi : idx_main_v13 (idx_main_v14 (idx_main_v15 (ix2 k e))) k' = ix2 k' e :=
    funext fun a => Fin.ext (by match a with | ⟨0, _⟩ => rfl | ⟨1, _⟩ => rfl)
  rw [hi]
  exact exp_read x3 k' e

/-- THE REFERENCE'S SOFTMAX: transposed to [1000000, 4] it is the row softmax of the transposed weights. -/
theorem ref_softmax (x3 : (⟨S4x1000000, .f32⟩ : BufTy).Contents (Elt Ideal)) :
    val_main_v17 (F := Ideal) x3
      = Cert.Spec.softmaxRows (R := 1000000) (fun i => x3 (ix2 ⟨(i 1).val, idx2_lt1 i⟩ ⟨(i 0).val, idx2_lt0 i⟩)) := by
  funext i
  obtain ⟨e, c, rfl⟩ : ∃ (e : Fin 1000000) (c : Fin 4), i = ix2 e c := ⟨i 0, i 1, eq_ix2 i⟩
  rw [val_main_v17_apply, val_main_v16_apply]
  have hi : idx_main_v17 (ix2 e c) = ix2 c e :=
    funext fun a => Fin.ext (by match a with | ⟨0, _⟩ => rfl | ⟨1, _⟩ => rfl)
  rw [hi, exp_read x3 c e, sum_read x3 c e]
  rfl

end Cert.RefSoftmax

end
-- ==== Proof.RowsIdx.lean ====
/-
  Reading rows of a table at a list of row numbers, and adding rows into a table at a list of row numbers,
  read at one index: for a table of rows of 64 and for the same table seen as rows of 4 chunks of 16.
-/
import proofs.«134008_j4887672782966_2_alg».proof.Proof.Gen.KernelIdeal
import proofs.«134008_j4887672782966_2_alg».proof.Proof.Gen.ReferenceIdeal
import proofs.«134008_j4887672782966_2_alg».proof.Proof.Spec
import Idealize.ShloMosaic.Lib.ValueIdx
import Idealize.ShloMosaic.Lib.Pipeline.Value
import Idealize.ShloMosaic.PureOps.Ideal.Laws

noncomputable section

open scoped BigOperators

namespace Cert.RowsIdx

open Idealize.ShloMosaic Idealize.ShloMosaic.ValueIdx

/-- Reading rows of an [150000, 64] table: entry (e, c) of the result is the table's entry (n, c), n the e-th row
    number read signed and clamped into the table. -/
theorem gather64_apply {α : Type} (x : Cert.KernelIdeal.S150000x64.Idx → α) (gi : IVec Cert.KernelIdeal.S1000000x1 32)
    (e : Fin 1000000) (c : Fin 64) :
    Host.gather Cert.KernelIdeal.gather_S150000x64_S1000000x1_S1000000x64_1_0_n_n_0_1_164 x gi (ix2 e c)
      = x (ix2 (Cert.Spec.clampRow 150000 (by decide) (gi (ix2 e (0 : Fin 1))).toInt) c) := by
  unfold Host.gather
  congr 1
  funext a
  refine Fin.ext ?_
  match a with
  | ⟨0, _⟩ =>
    show Cert.KernelIdeal.gather_S150000x64_S1000000x1_S1000000x64_1_0_n_n_0_1_164.start (ix2 e c) gi 0
        + Cert.KernelIdeal.gather_S150000x64_S1000000x1_S1000000x64_1_0_n_n_0_1_164.batchCoord (ix2 e c) 0
        + Cert.KernelIdeal.gather_S150000x64_S1000000x1_S1000000x64_1_0_n_n_0_1_164.offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.KernelIdeal.gather_S150000x64_S1000000x1_S1000000x64_1_0_n_n_0_1_164.startIndexMap
      from List.mem_singleton.mpr rfl)]
    have hsi : Cert.KernelIdeal.gather_S150000x64_S1000000x1_S1000000x64_1_0_n_n_0_1_164.siIdx (ix2 e c)
        ⟨List.idxOf (0 : Fin 2) Cert.KernelIdeal.gather_S150000x64_S1000000x1_S1000000x64_1_0_n_n_0_1_164.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show Cert.KernelIdeal.gather_S150000x64_S1000000x1_S1000000x64_1_0_n_n_0_1_164.start (ix2 e c) gi 1
        + Cert.KernelIdeal.gather_S150000x64_S1000000x1_S1000000x64_1_0_n_n_0_1_164.batchCoord (ix2 e c) 1
        + Cert.KernelIdeal.gather_S150000x64_S1000000x1_S1000000x64_1_0_n_n_0_1_164.offCoord (ix2 e c) 1 = _
    rw [GatherDims.batchCoord_eq_zero _ _ _ List.not_mem_nil]
    unfold GatherDims.start
    rw [dif_neg (show ¬ (1 : Fin 2) ∈ Cert.KernelIdeal.gather_S150000x64_S1000000x1_S1000000x64_1_0_n_n_0_1_164.startIndexMap
      from by decide)]
    simp only [Nat.add_zero, Nat.zero_add]
    rfl

/-- Reading rows of an [150000, 4, 16] table: entry (e, k, c) of the result is the table's entry (n, k, c), n the e-th
    row number read signed and clamped into the table. -/
theorem gather416_apply {α : Type} (x : Cert.ReferenceIdeal.S150000x4x16.Idx → α) (gi : IVec Cert.ReferenceIdeal.S1000000x1 32)
    (e : Fin 1000000) (k : Fin 4) (c : Fin 16) :
    Host.gather Cert.ReferenceIdeal.gather_S150000x4x16_S1000000x1_S1000000x4x16_12_0_n_n_0_1_1416 x gi (ix3 e k c)
      = x (ix3 (Cert.Spec.clampRow 150000 (by decide) (gi (ix2 e (0 : Fin 1))).toInt) k c) := by
  unfold Host.gather
  congr 1
  funext a
  refine Fin.ext ?_
  match a with
  | ⟨0, _⟩ =>
    show Cert.ReferenceIdeal.gather_S150000x4x16_S1000000x1_S1000000x4x16_12_0_n_n_0_1_1416.start (ix3 e k c) gi 0
        + Cert.ReferenceIdeal.gather_S150000x4x16_S1000000x1_S1000000x4x16_12_0_n_n_0_1_1416.batchCoord (ix3 e k c) 0
        + Cert.ReferenceIdeal.gather_S150000x4x16_S1000000x1_S1000000x4x16_12_0_n_n_0_1_1416.offCoord (ix3 e k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ Cert.ReferenceIdeal.gather_S150000x4x16_S1000000x1_S1000000x4x16_12_0_n_n_0_1_1416.startIndexMap
      from List.mem_singleton.mpr rfl)]
    have hsi : Cert.ReferenceIdeal.gather_S150000x4x16_S1000000x1_S1000000x4x16_12_0_n_n_0_1_1416.siIdx (ix3 e k c)
        ⟨List.idxOf (0 : Fin 3) Cert.ReferenceIdeal.gather_S150000x4x16_S1000000x1_S1000000x4x16_12_0_n_n_0_1_1416.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show Cert.ReferenceIdeal.gather_S150000x4x16_S1000000x1_S1000000x4x16_12_0_n_n_0_1_1416.start (ix3 e k c) gi 1
        + Cert.ReferenceIdeal.gather_S150000x4x16_S1000000x1_S1000000x4x16_12_0_n_n_0_1_1416.batchCoord (ix3 e k c) 1
        + Cert.ReferenceIdeal.gather_S150000x4x16_S1000000x1_S1000000x4x16_12_0_n_n_0_1_1416.offCoord (ix3 e k c) 1 = _
    rw [GatherDims.batchCoord_eq_zero _ _ _ List.not_mem_nil]
    unfold GatherDims.start
    rw [dif_neg (show ¬ (1 : Fin 3) ∈ Cert.ReferenceIdeal.gather_S150000x4x16_S1000000x1_S1000000x4x16_12_0_n_n_0_1_1416.startIndexMap
      from by decide)]
    simp only [Nat.add_zero, Nat.zero_add]
    rfl
  | ⟨2, _⟩ =>
    show Cert.ReferenceIdeal.gather_S150000x4x16_S1000000x1_S1000000x4x16_12_0_n_n_0_1_1416.start (ix3 e k c) gi 2
        + Cert.ReferenceIdeal.gather_S150000x4x16_S1000000x1_S1000000x4x16_12_0_n_n_0_1_1416.batchCoord (ix3 e k c) 2
        + Cert.ReferenceIdeal.gather_S150000x4x16_S1000000x1_S1000000x4x16_12_0_n_n_0_1_1416.offCoord (ix3 e k c) 2 = _
    rw [GatherDims.batchCoord_eq_zero _ _ _ List.not_mem_nil]
    unfold GatherDims.start
    rw [dif_neg (show ¬ (2 : Fin 3) ∈ Cert.ReferenceIdeal.gather_S150000x4x16_S1000000x1_S1000000x4x16_12_0_n_n_0_1_1416.startIndexMap
      from by decide)]
    simp only [Nat.add_zero, Nat.zero_add]
    rfl

/-! ## Adding rows: where an update lands, and the sum over the updates that land at one entry -/

/-- An update lands at operand index `i` exactly when, on every axis, its start (read signed) plus its window
    coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h]
    constructor
    · intro heq a
      have h1 := congrArg (fun f => ((f a).val : Int)) (Option.some.inj heq)
      simp only at h1
      rw [← h1]
      exact (Int.toNat_of_nonneg (h a).1).symm
    · intro hall
      refine congrArg some ?_
      funext a
      refine Fin.ext ?_
      show (d.start j idx a + d.window j a).toNat = (i a).val
      rw [hall a]
      exact Int.toNat_natCast _
  · rw [dif_neg h]
    constructor
    · intro heq
      exact absurd heq (by simp)
    · intro hall
      refine absurd (fun a => ?_) h
      rw [hall a]
      exact ⟨Int.natCast_nonneg _, by exact_mod_cast (i a).isLt⟩

/-- A sum over the indices satisfying `p`, when those are exactly the images under an injection `g` of the `e`
    satisfying `q`, is the sum over all `e` of the term at `g e` where `q e` holds and zero elsewhere. -/
theorem sum_filter_of_inj {ι κ M : Type*} [Fintype ι] [Fintype κ] [DecidableEq ι] [AddCommMonoid M]
    (p : ι → Prop) [DecidablePred p] (q : κ → Prop) [DecidablePred q] (g : κ → ι) (hg : Function.Injective g)
    (hp : ∀ j, p j ↔ ∃ e, q e ∧ g e = j) (f : ι → M) :
    ∑ j ∈ Finset.univ.filter p, f j = ∑ e, if q e then f (g e) else 0 := by
  rw [← Finset.sum_filter]
  have hset : Finset.univ.filter p = (Finset.univ.filter q).image g := by
    ext j
    simp only [Finset.mem_filter, Finset.mem_univ, true_and, Finset.mem_image]
    exact hp j
  rw [hset, Finset.sum_image (fun a _ b _ hab => hg hab)]

/-- Where an update of the [1000000, 64] rows lands in the [150000, 64] table: at (n, c) exactly when its row number,
    read signed, is n and its column is c. -/
theorem resultIdx?_64 (si : IVec Cert.KernelIdeal.S1000000x1 32) (e : Fin 1000000) (c' : Fin 64) (n : Fin 150000) (c : Fin 64) :
    Cert.KernelIdeal.scatter_S150000x64_S1000000x1_S1000000x64_1_0_0_1.resultIdx? (ix2 e c') si = some (ix2 n c)
      ↔ (si (ix2 e (0 : Fin 1))).toInt = (n.val : Int) ∧ c' = c := by
  have hs0 : Cert.KernelIdeal.scatter_S150000x64_S1000000x1_S1000000x64_1_0_0_1.start (ix2 e c') si 0 = (si (ix2 e (0 : Fin 1))).toInt := by
    unfold ScatterDims.start
    rw [dif_pos (show (0 : Fin 2) ∈ Cert.KernelIdeal.scatter_S150000x64_S1000000x1_S1000000x64_1_0_0_1.scatterDimsToOperandDims from List.mem_singleton.mpr rfl)]
    have hsi : Cert.KernelIdeal.scatter_S150000x64_S1000000x1_S1000000x64_1_0_0_1.siIdx (ix2 e c')
        ⟨List.idxOf (0 : Fin 2) Cert.KernelIdeal.scatter_S150000x64_S1000000x1_S1000000x64_1_0_0_1.scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : Cert.KernelIdeal.scatter_S150000x64_S1000000x1_S1000000x64_1_0_0_1.start (ix2 e c') si 1 = 0 := by
    unfold ScatterDims.start
    rw [dif_neg (show ¬ (1 : Fin 2) ∈ Cert.KernelIdeal.scatter_S150000x64_S1000000x1_S1000000x64_1_0_0_1.scatterDimsToOperandDims from by decide)]
  have hw0 : Cert.KernelIdeal.scatter_S150000x64_S1000000x1_S1000000x64_1_0_0_1.window (ix2 e c') 0 = 0 := by
    unfold ScatterDims.window
    rw [dif_neg (show ¬ (0 : Fin 2) ∈ Cert.KernelIdeal.scatter_S150000x64_S1000000x1_S1000000x64_1_0_0_1.sKept from by decide)]
  have hw1 : Cert.KernelIdeal.scatter_S150000x64_S1000000x1_S1000000x64_1_0_0_1.window (ix2 e c') 1 = c'.val := by
    unfold ScatterDims.window
    rw [dif_pos (show (1 : Fin 2) ∈ Cert.KernelIdeal.scatter_S150000x64_S1000000x1_S1000000x64_1_0_0_1.sKept from by decide)]
    rfl
  rw [resultIdx?_eq_some_iff]
  constructor
  · intro h
    have h0 := h 0
    have h1 := h 1
    rw [hs0, hw0] at h0
    rw [hs1, hw1] at h1
    refine ⟨by simpa using h0, Fin.ext ?_⟩
    have h1' : ((c'.val : Int)) = (c.val : Int) := by simpa using h1
    exact_mod_cast h1'
  · rintro ⟨h0, rfl⟩ a
    match a with
    | ⟨0, _⟩ =>
      show Cert.KernelIdeal.scatter_S150000x64_S1000000x1_S1000000x64_1_0_0_1.start (ix2 e c') si 0 + (Cert.KernelIdeal.scatter_S150000x64_S1000000x1_S1000000x64_1_0_0_1.window (ix2 e c') 0 : Int) = (n.val : Int)
      rw [hs0, hw0, h0]; simp
    | ⟨1, _⟩ =>
      show Cert.KernelIdeal.scatter_S150000x64_S1000000x1_S1000000x64_1_0_0_1.start (ix2 e c') si 1 + (Cert.KernelIdeal.scatter_S150000x64_S1000000x1_S1000000x64_1_0_0_1.window (ix2 e c') 1 : Int) = (c'.val : Int)
      rw [hs1, hw1]; simp

/-- Adding rows into an [150000, 64] table: entry (n, c) of the result is the table's entry plus the sum, over the
    positions e of the list whose row number read signed is n, of entry (e, c) of the rows added. -/
theorem scatterAdd64_apply {φ : FTy} (x : Cert.KernelIdeal.S150000x64.Idx → EReal) (si : IVec Cert.KernelIdeal.S1000000x1 32)
    (u : Cert.KernelIdeal.S1000000x64.Idx → EReal) (n : Fin 150000) (c : Fin 64) :
    Host.scatterAdd (F := Ideal) (φ := φ) Cert.KernelIdeal.scatter_S150000x64_S1000000x1_S1000000x64_1_0_0_1 x si u (ix2 n c)
      = x (ix2 n c) + ∑ e : Fin 1000000, if (si (ix2 e (0 : Fin 1))).toInt = (n.val : Int) then u (ix2 e c) else 0 := by
  show Ideal.hostScatterAdd Cert.KernelIdeal.scatter_S150000x64_S1000000x1_S1000000x64_1_0_0_1 x si u (ix2 n c) = _
  unfold Ideal.hostScatterAdd
  refine congrArg (fun t => x (ix2 n c) + t) ?_
  refine sum_filter_of_inj _ (fun e : Fin 1000000 => (si (ix2 e (0 : Fin 1))).toInt = (n.val : Int))
    (fun e : Fin 1000000 => (ix2 e c : Cert.KernelIdeal.S1000000x64.Idx)) ?_ ?_ u
  · intro a b hab
    exact congrArg (fun f : Cert.KernelIdeal.S1000000x64.Idx => f 0) hab
  · intro j
    obtain ⟨e, c', rfl⟩ : ∃ e c', j = ix2 e c' := ⟨j 0, j 1, eq_ix2 j⟩
    rw [resultIdx?_64]
    constructor
    · rintro ⟨h0, rfl⟩
      exact ⟨e, h0, rfl⟩
    · rintro ⟨e', h0, heq⟩
      have he : e' = e := congrArg (fun f : Cert.KernelIdeal.S1000000x64.Idx => f 0) heq
      have hc : c = c' := congrArg (fun f : Cert.KernelIdeal.S1000000x64.Idx => f 1) heq
      subst he; subst hc
      exact ⟨h0, rfl⟩

/-- Where an update of the [1000000, 4, 16] rows lands in the [150000, 4, 16] table: at (n, k, c) exactly when its row
    number, read signed, is n and its other two coordinates are k and c. -/
theorem resultIdx?_416 (si : IVec Cert.ReferenceIdeal.S1000000x1 32) (e : Fin 1000000) (k' : Fin 4) (c' : Fin 16)
    (n : Fin 150000) (k : Fin 4) (c : Fin 16) :
    Cert.ReferenceIdeal.scatter_S150000x4x16_S1000000x1_S1000000x4x16_12_0_0_1.resultIdx? (ix3 e k' c') si = some (ix3 n k c)
      ↔ (si (ix2 e (0 : Fin 1))).toInt = (n.val : Int) ∧ k' = k ∧ c' = c := by
  have hs0 : Cert.ReferenceIdeal.scatter_S150000x4x16_S1000000x1_S1000000x4x16_12_0_0_1.start (ix3 e k' c') si 0 = (si (ix2 e (0 : Fin 1))).toInt := by
    unfold ScatterDims.start
    rw [dif_pos (show (0 : Fin 3) ∈ Cert.ReferenceIdeal.scatter_S150000x4x16_S1000000x1_S1000000x4x16_12_0_0_1.scatterDimsToOperandDims from List.mem_singleton.mpr rfl)]
    have hsi : Cert.ReferenceIdeal.scatter_S150000x4x16_S1000000x1_S1000000x4x16_12_0_0_1.siIdx (ix3 e k' c')
        ⟨List.idxOf (0 : Fin 3) Cert.ReferenceIdeal.scatter_S150000x4x16_S1000000x1_S1000000x4x16_12_0_0_1.scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : Cert.ReferenceIdeal.scatter_S150000x4x16_S1000000x1_S1000000x4x16_12_0_0_1.start (ix3 e k' c') si 1 = 0 := by
    unfold ScatterDims.start
    rw [dif_neg (show ¬ (1 : Fin 3) ∈ Cert.ReferenceIdeal.scatter_S150000x4x16_S1000000x1_S1000000x4x16_12_0_0_1.scatterDimsToOperandDims from by decide)]
  have hs2 : Cert.ReferenceIdeal.scatter_S150000x4x16_S1000000x1_S1000000x4x16_12_0_0_1.start (ix3 e k' c') si 2 = 0 := by
    unfold ScatterDims.start
    rw [dif_neg (show ¬ (2 : Fin 3) ∈ Cert.ReferenceIdeal.scatter_S150000x4x16_S1000000x1_S1000000x4x16_12_0_0_1.scatterDimsToOperandDims from by decide)]
  have hw0 : Cert.ReferenceIdeal.scatter_S150000x4x16_S1000000x1_S1000000x4x16_12_0_0_1.window (ix3 e k' c') 0 = 0 := by
    unfold ScatterDims.window
    rw [dif_neg (show ¬ (0 : Fin 3) ∈ Cert.ReferenceIdeal.scatter_S150000x4x16_S1000000x1_S1000000x4x16_12_0_0_1.sKept from by decide)]
  have hw1 : Cert.ReferenceIdeal.scatter_S150000x4x16_S1000000x1_S1000000x4x16_12_0_0_1.window (ix3 e k' c') 1 = k'.val := by
    unfold ScatterDims.window
    rw [dif_pos (show (1 : Fin 3) ∈ Cert.ReferenceIdeal.scatter_S150000x4x16_S1000000x1_S1000000x4x16_12_0_0_1.sKept from by decide)]
    rfl
  have hw2 : Cert.ReferenceIdeal.scatter_S150000x4x16_S1000000x1_S1000000x4x16_12_0_0_1.window (ix3 e k' c') 2 = c'.val := by
    unfold ScatterDims.window
    rw [dif_pos (show (2 : Fin 3) ∈ Cert.ReferenceIdeal.scatter_S150000x4x16_S1000000x1_S1000000x4x16_12_0_0_1.sKept from by decide)]
    rfl
  rw [resultIdx?_eq_some_iff]
  constructor
  · intro h
    have h0 := h 0
    have h1 := h 1
    have h2 := h 2
    rw [hs0, hw0] at h0
    rw [hs1, hw1] at h1
    rw [hs2, hw2] at h2
    refine ⟨by simpa using h0, Fin.ext ?_, Fin.ext ?_⟩
    · have h1' : ((k'.val : Int)) = (k.val : Int) := by simpa using h1
      exact_mod_cast h1'
    · have h2' : ((c'.val : Int)) = (c.val : Int) := by simpa using h2
      exact_mod_cast h2'
  · rintro ⟨h0, rfl, rfl⟩ a
    match a with
    | ⟨0, _⟩ =>
      show Cert.ReferenceIdeal.scatter_S150000x4x16_S1000000x1_S1000000x4x16_12_0_0_1.start (ix3 e k' c') si 0 + (Cert.ReferenceIdeal.scatter_S150000x4x16_S1000000x1_S1000000x4x16_12_0_0_1.window (ix3 e k' c') 0 : Int) = (n.val : Int)
      rw [hs0, hw0, h0]; simp
    | ⟨1, _⟩ =>
      show Cert.ReferenceIdeal.scatter_S150000x4x16_S1000000x1_S1000000x4x16_12_0_0_1.start (ix3 e k' c') si 1 + (Cert.ReferenceIdeal.scatter_S150000x4x16_S1000000x1_S1000000x4x16_12_0_0_1.window (ix3 e k' c') 1 : Int) = (k'.val : Int)
      rw [hs1, hw1]; simp
    | ⟨2, _⟩ =>
      show Cert.ReferenceIdeal.scatter_S150000x4x16_S1000000x1_S1000000x4x16_12_0_0_1.start (ix3 e k' c') si 2 + (Cert.ReferenceIdeal.scatter_S150000x4x16_S1000000x1_S1000000x4x16_12_0_0_1.window (ix3 e k' c') 2 : Int) = (c'.val : Int)
      rw [hs2, hw2]; simp

/-- Adding rows into an [150000, 4, 16] table: entry (n, k, c) of the result is the table's entry plus the sum, over
    the positions e of the list whose row number read signed is n, of entry (e, k, c) of the rows added. -/
theorem scatterAdd416_apply {φ : FTy} (x : Cert.ReferenceIdeal.S150000x4x16.Idx → EReal) (si : IVec Cert.ReferenceIdeal.S1000000x1 32)
    (u : Cert.ReferenceIdeal.S1000000x4x16.Idx → EReal) (n : Fin 150000) (k : Fin 4) (c : Fin 16) :
    Host.scatterAdd (F := Ideal) (φ := φ) Cert.ReferenceIdeal.scatter_S150000x4x16_S1000000x1_S1000000x4x16_12_0_0_1 x si u (ix3 n k c)
      = x (ix3 n k c) + ∑ e : Fin 1000000, if (si (ix2 e (0 : Fin 1))).toInt = (n.val : Int) then u (ix3 e k c) else 0 := by
  show Ideal.hostScatterAdd Cert.ReferenceIdeal.scatter_S150000x4x16_S1000000x1_S1000000x4x16_12_0_0_1 x si u (ix3 n k c) = _
  unfold Ideal.hostScatterAdd
  refine congrArg (fun t => x (ix3 n k c) + t) ?_
  refine sum_filter_of_inj _ (fun e : Fin 1000000 => (si (ix2 e (0 : Fin 1))).toInt = (n.val : Int))
    (fun e : Fin 1000000 => (ix3 e k c : Cert.ReferenceIdeal.S1000000x4x16.Idx)) ?_ ?_ u
  · intro a b hab
    exact congrArg (fun f : Cert.ReferenceIdeal.S1000000x4x16.Idx => f 0) hab
  · intro j
    obtain ⟨e, k', c', rfl⟩ : ∃ e k' c', j = ix3 e k' c' := ⟨j 0, j 1, j 2, eq_ix3 j⟩
    rw [resultIdx?_416]
    constructor
    · rintro ⟨h0, rfl, rfl⟩
      exact ⟨e, h0, rfl⟩
    · rintro ⟨e', h0, heq⟩
      have he : e' = e := congrArg (fun f : Cert.ReferenceIdeal.S1000000x4x16.Idx => f 0) heq
      have hk : k = k' := congrArg (fun f : Cert.ReferenceIdeal.S1000000x4x16.Idx => f 1) heq
      have hc : c = c' := congrArg (fun f : Cert.ReferenceIdeal.S1000000x4x16.Idx => f 2) heq
      subst he; subst hk; subst hc
      exact ⟨h0, rfl, rfl⟩

end Cert.RowsIdx

end
-- ==== Proof.RowsLaw.lean ====
/-
  Reading rows and adding rows commute with seeing each row of 64 as 4 chunks of 16: the law by which a layer of the
  graph propagation computed on rows of 64 and the same layer computed on rows of 4 chunks of 16 agree.
-/
import proofs.«134008_j4887672782966_2_alg».proof.Proof.RowsIdx

noncomputable section

open scoped BigOperators

namespace Cert.RowsLaw

open Idealize.ShloMosaic Idealize.ShloMosaic.ValueIdx Cert.RowsIdx

/-- The reshape of an [150000, 64] array to [150000, 4, 16] is the array seen as rows of 4 chunks of 16: both read the
    element at the same row-major position, 64 n + (16 k + c) = (4 n + k) 16 + c. -/
theorem asChunks_eq (x : Cert.KernelIdeal.S150000x64.Idx → EReal)
    (h : Cert.KernelIdeal.S150000x64.ShapeCasts Cert.KernelIdeal.S150000x4x16) :
    shapeCast Cert.KernelIdeal.S150000x4x16 x h = Cert.Spec.asChunks x := by
  funext i
  unfold Cert.Spec.asChunks
  refine shapeCast_apply x h i _ ?_
  rewrite [Shape.rowMajor_val_two, Shape.rowMajor_val_three]
  have h1 : (i 1).val < 4 := (i 1).isLt
  have h2 : (i 2).val < 16 := (i 2).isLt
  show (i 0).val * 64 + ((i 1).val * 16 + (i 2).val) = ((i 0).val * 4 + (i 1).val) * 16 + (i 2).val
  omega

/-- Column 16 k + c of a row of 64 lies in chunk k. -/
theorem chunkOf_chunk (k : Fin 4) (c : Fin 16) (h : k.val * 16 + c.val < 64) :
    Cert.Spec.chunkOf ⟨k.val * 16 + c.val, h⟩ = k := by
  refine Fin.ext ?_
  show (k.val * 16 + c.val) / 16 = k.val
  have hc : c.val < 16 := c.isLt
  omega

/-- THE LAW. Read rows of a table of rows of 64 at a list of row numbers, scale chunk k of row e by the weight (e, k),
    and add the rows into an empty table at a second list of row numbers; then see the result as rows of 4 chunks of 16.
    The same is obtained by seeing the table as rows of 4 chunks of 16 first and doing the three steps there, the weight
    (e, k) spread over the sixteen entries of chunk k of row e. -/
theorem layer_law {φ : FTy} (x : Cert.KernelIdeal.S150000x64.Idx → EReal) (gi si : IVec Cert.KernelIdeal.S1000000x1 32)
    (nrm : Cert.KernelIdeal.S1000000x4.Idx → EReal)
    (z64 : Cert.KernelIdeal.S150000x64.Idx → EReal) (z416 : Cert.ReferenceIdeal.S150000x4x16.Idx → EReal)
    (hz64 : ∀ i, z64 i = 0) (hz416 : ∀ i, z416 i = 0)
    (bn : Cert.ReferenceIdeal.S1000000x4x16.Idx → EReal)
    (hbn : ∀ (e : Fin 1000000) (k : Fin 4) (c : Fin 16), bn (ix3 e k c) = nrm (ix2 e k)) :
    Cert.Spec.asChunks (Host.scatterAdd (F := Ideal) (φ := φ) Cert.KernelIdeal.scatter_S150000x64_S1000000x1_S1000000x64_1_0_0_1 z64 si
        (Cert.Spec.scaleChunks (Host.gather Cert.KernelIdeal.gather_S150000x64_S1000000x1_S1000000x64_1_0_n_n_0_1_164 x gi) nrm))
      = Host.scatterAdd (F := Ideal) (φ := φ) Cert.ReferenceIdeal.scatter_S150000x4x16_S1000000x1_S1000000x4x16_12_0_0_1 z416 si
          (mulf (F := Ideal) (φ := φ) bn (Host.gather Cert.ReferenceIdeal.gather_S150000x4x16_S1000000x1_S1000000x4x16_12_0_n_n_0_1_1416 (Cert.Spec.asChunks x) gi)) := by
  funext i
  obtain ⟨n, k, c, rfl⟩ : ∃ n k c, i = ix3 n k c := ⟨i 0, i 1, i 2, eq_ix3 i⟩
  have hkc : k.val * 16 + c.val < 64 := by
    have h1 : k.val < 4 := k.isLt
    have h2 : c.val < 16 := c.isLt
    omega
  show Host.scatterAdd (F := Ideal) (φ := φ) Cert.KernelIdeal.scatter_S150000x64_S1000000x1_S1000000x64_1_0_0_1 z64 si
        (Cert.Spec.scaleChunks (Host.gather Cert.KernelIdeal.gather_S150000x64_S1000000x1_S1000000x64_1_0_n_n_0_1_164 x gi) nrm)
        (ix2 n (⟨k.val * 16 + c.val, hkc⟩ : Fin 64)) = _
  rw [scatterAdd64_apply, scatterAdd416_apply, hz64, hz416]
  refine congrArg (fun t => (0 : EReal) + t) (Finset.sum_congr rfl fun e _ => ?_)
  by_cases he : (si (ix2 e (0 : Fin 1))).toInt = (n.val : Int)
  · rw [if_pos he, if_pos he]
    show Host.gather Cert.KernelIdeal.gather_S150000x64_S1000000x1_S1000000x64_1_0_n_n_0_1_164 x gi (ix2 e (⟨k.val * 16 + c.val, hkc⟩ : Fin 64))
          * nrm (ix2 e (Cert.Spec.chunkOf ⟨k.val * 16 + c.val, hkc⟩))
        = bn (ix3 e k c) * Host.gather Cert.ReferenceIdeal.gather_S150000x4x16_S1000000x1_S1000000x4x16_12_0_n_n_0_1_1416 (Cert.Spec.asChunks x) gi (ix3 e k c)
    rw [gather64_apply, gather416_apply, hbn, chunkOf_chunk]
    exact mul_comm _ _
  · rw [if_neg he, if_neg he]

end Cert.RowsLaw

end
-- ==== Proof.RefLayers.lean ====
/-
  The three layers of the graph propagation as the reference computes them, on the table held as rows of 4 chunks of
  16, against one and the same layer on the table held as rows of 64: each reference layer is that layer seen through
  the chunks, so three of them in a row are the reference's result.
-/
import proofs.«134008_j4887672782966_2_alg».proof.Proof.RowsLaw
import proofs.«134008_j4887672782966_2_alg».proof.Proof.Gen.ReferenceIdeal.Read
import proofs.«134008_j4887672782966_2_alg».proof.Proof.Gen.KernelIdeal

noncomputable section

open scoped BigOperators

namespace Cert.RefLayers

open Idealize.ShloMosaic Idealize.ShloMosaic.ValueIdx Cert.RowsIdx Cert.RowsLaw

/-- One layer on the table held as rows of 64: read the rows named by the first list, scale chunk k of row e by the
    weight (e, k), and add the rows into an empty table at the rows named by the second list. -/
def kLayer (x2 : (⟨Cert.ReferenceIdeal.S2x1000000, .i32⟩ : BufTy).Contents (Elt Ideal)) (x3 : (⟨Cert.ReferenceIdeal.S4x1000000, .f32⟩ : BufTy).Contents (Elt Ideal))
    (X : Cert.KernelIdeal.S150000x64.Idx → EReal) : Cert.KernelIdeal.S150000x64.Idx → EReal :=
  Host.scatterAdd (F := Ideal) (φ := .f32) Cert.KernelIdeal.scatter_S150000x64_S1000000x1_S1000000x64_1_0_0_1
    (broadcastInDim Cert.KernelIdeal.S150000x64 ![] Cert.KernelIdeal.Facts₀.bcast_S_S150000x64 (constant (F := Ideal) Cert.KernelIdeal.S_ .f32 0x00000000#32))
    (broadcastInDim Cert.KernelIdeal.S1000000x1 ![0] Cert.KernelIdeal.Facts₀.bcast_S1000000_S1000000x1_0 (Cert.ReferenceIdeal.Read.val_main_v3 (F := Ideal) x2))
    (Cert.Spec.scaleChunks (Host.gather Cert.KernelIdeal.gather_S150000x64_S1000000x1_S1000000x64_1_0_n_n_0_1_164 X (Cert.ReferenceIdeal.Read.val_main_v54 (F := Ideal) x2)) (Cert.ReferenceIdeal.Read.val_main_v47 (F := Ideal) x2 x3))

/-- The empty table of rows of 64 is zero everywhere. -/
theorem zero64_apply (i : Cert.KernelIdeal.S150000x64.Idx) :
    broadcastInDim Cert.KernelIdeal.S150000x64 ![] Cert.KernelIdeal.Facts₀.bcast_S_S150000x64 (constant (F := Ideal) Cert.KernelIdeal.S_ .f32 0x00000000#32) i = 0 :=
  Ideal.ofBits_zero_f32

/-- The empty table of rows of 4 chunks of 16 is zero everywhere. -/
theorem zero416_apply (i : Cert.ReferenceIdeal.S150000x4x16.Idx) : Cert.ReferenceIdeal.Read.val_main_v58 (F := Ideal) i = 0 := by
  rw [Cert.ReferenceIdeal.Read.val_main_v58_apply, Cert.ReferenceIdeal.Read.val_main_cst_13_apply]
  exact Ideal.ofBits_zero_f32

/-- The weights spread over the chunks: entry (e, k, c) is the weight (e, k). -/
theorem spread_apply (x2 : (⟨Cert.ReferenceIdeal.S2x1000000, .i32⟩ : BufTy).Contents (Elt Ideal)) (x3 : (⟨Cert.ReferenceIdeal.S4x1000000, .f32⟩ : BufTy).Contents (Elt Ideal)) (e : Fin 1000000) (k : Fin 4) (c : Fin 16) :
    Cert.ReferenceIdeal.Read.val_main_v56 (F := Ideal) x2 x3 (ix3 e k c) = Cert.ReferenceIdeal.Read.val_main_v47 (F := Ideal) x2 x3 (ix2 e k) := by
  rw [Cert.ReferenceIdeal.Read.val_main_v56_apply, Cert.ReferenceIdeal.Read.val_main_v48_apply]
  refine congrArg _ (funext fun a => ?_)
  match a with
  | ⟨0, _⟩ => rfl
  | ⟨1, _⟩ => rfl

/-- One layer seen through the chunks, for any table `X` of rows of 64 whose view as chunks is `T`: the reference's
    three steps on `T` with the first layer's lists, weights and empty table. -/
theorem layer_through_chunks (x2 : (⟨Cert.ReferenceIdeal.S2x1000000, .i32⟩ : BufTy).Contents (Elt Ideal)) (x3 : (⟨Cert.ReferenceIdeal.S4x1000000, .f32⟩ : BufTy).Contents (Elt Ideal))
    (X : Cert.KernelIdeal.S150000x64.Idx → EReal) (T : Cert.ReferenceIdeal.S150000x4x16.Idx → EReal) (hX : Cert.Spec.asChunks X = T) :
    Cert.Spec.asChunks (kLayer x2 x3 X)
      = Host.scatterAdd (F := Ideal) (φ := .f32) Cert.ReferenceIdeal.scatter_S150000x4x16_S1000000x1_S1000000x4x16_12_0_0_1 (Cert.ReferenceIdeal.Read.val_main_v58 (F := Ideal)) (Cert.ReferenceIdeal.Read.val_main_v59 (F := Ideal) x2)
          (mulf (F := Ideal) (φ := .f32) (Cert.ReferenceIdeal.Read.val_main_v56 (F := Ideal) x2 x3)
            (Host.gather Cert.ReferenceIdeal.gather_S150000x4x16_S1000000x1_S1000000x4x16_12_0_n_n_0_1_1416 T (Cert.ReferenceIdeal.Read.val_main_v54 (F := Ideal) x2))) := by
  subst hX
  unfold kLayer
  exact layer_law (φ := .f32) X (Cert.ReferenceIdeal.Read.val_main_v54 (F := Ideal) x2) _ (Cert.ReferenceIdeal.Read.val_main_v47 (F := Ideal) x2 x3) _
    (Cert.ReferenceIdeal.Read.val_main_v58 (F := Ideal)) zero64_apply zero416_apply (Cert.ReferenceIdeal.Read.val_main_v56 (F := Ideal) x2 x3) (spread_apply x2 x3)

set_option maxHeartbeats 400000 in
/-- Layer 1: the reference's first layer is the layer on rows of 64 applied to the concatenated table, seen through
    the chunks. -/
theorem ref_layer1 (x0 : (⟨Cert.ReferenceIdeal.S100000x64, .f32⟩ : BufTy).Contents (Elt Ideal)) (x1 : (⟨Cert.ReferenceIdeal.S50000x64, .f32⟩ : BufTy).Contents (Elt Ideal)) (x2 : (⟨Cert.ReferenceIdeal.S2x1000000, .i32⟩ : BufTy).Contents (Elt Ideal)) (x3 : (⟨Cert.ReferenceIdeal.S4x1000000, .f32⟩ : BufTy).Contents (Elt Ideal)) :
    Cert.Spec.asChunks (kLayer x2 x3 (Cert.ReferenceIdeal.Read.val_main_v4 (F := Ideal) x0 x1)) = Cert.ReferenceIdeal.Read.val_main_v60 (F := Ideal) x0 x1 x2 x3 := by
  refine (layer_through_chunks x2 x3 _ (Cert.ReferenceIdeal.Read.val_main_v5 (F := Ideal) x0 x1) ?_).trans ?_
  · unfold Cert.ReferenceIdeal.Read.val_main_v5
    exact (asChunks_eq _ _).symm
  · unfold Cert.ReferenceIdeal.Read.val_main_v60 Cert.ReferenceIdeal.Read.val_main_v57 Cert.ReferenceIdeal.Read.val_main_v55
    rfl

set_option maxHeartbeats 400000 in
/-- The second layer's weights are the first layer's: the same term of the two lists and the scores, computed again. -/
theorem weights2_eq (x2 : (⟨Cert.ReferenceIdeal.S2x1000000, .i32⟩ : BufTy).Contents (Elt Ideal)) (x3 : (⟨Cert.ReferenceIdeal.S4x1000000, .f32⟩ : BufTy).Contents (Elt Ideal)) :
    Cert.ReferenceIdeal.Read.val_main_v102 (F := Ideal) x2 x3 = Cert.ReferenceIdeal.Read.val_main_v47 (F := Ideal) x2 x3 := rfl

set_option maxHeartbeats 400000 in
/-- The third layer's weights are the first layer's. -/
theorem weights3_eq (x2 : (⟨Cert.ReferenceIdeal.S2x1000000, .i32⟩ : BufTy).Contents (Elt Ideal)) (x3 : (⟨Cert.ReferenceIdeal.S4x1000000, .f32⟩ : BufTy).Contents (Elt Ideal)) :
    Cert.ReferenceIdeal.Read.val_main_v157 (F := Ideal) x2 x3 = Cert.ReferenceIdeal.Read.val_main_v47 (F := Ideal) x2 x3 := rfl

set_option maxHeartbeats 400000 in
/-- Layer 2: the reference's second layer is the same layer on rows of 64, applied to a table whose view as chunks is
    the reference's first layer. -/
theorem ref_layer2 (x0 : (⟨Cert.ReferenceIdeal.S100000x64, .f32⟩ : BufTy).Contents (Elt Ideal)) (x1 : (⟨Cert.ReferenceIdeal.S50000x64, .f32⟩ : BufTy).Contents (Elt Ideal)) (x2 : (⟨Cert.ReferenceIdeal.S2x1000000, .i32⟩ : BufTy).Contents (Elt Ideal)) (x3 : (⟨Cert.ReferenceIdeal.S4x1000000, .f32⟩ : BufTy).Contents (Elt Ideal))
    (X : Cert.KernelIdeal.S150000x64.Idx → EReal) (hX : Cert.Spec.asChunks X = Cert.ReferenceIdeal.Read.val_main_v60 (F := Ideal) x0 x1 x2 x3) :
    Cert.Spec.asChunks (kLayer x2 x3 X) = Cert.ReferenceIdeal.Read.val_main_v115 (F := Ideal) x0 x1 x2 x3 := by
  refine (layer_through_chunks x2 x3 X _ hX).trans ?_
  unfold Cert.ReferenceIdeal.Read.val_main_v115 Cert.ReferenceIdeal.Read.val_main_v112 Cert.ReferenceIdeal.Read.val_main_v110 Cert.ReferenceIdeal.Read.val_main_v111 Cert.ReferenceIdeal.Read.val_main_v103
  rw [weights2_eq]
  rfl

set_option maxHeartbeats 400000 in
/-- Layer 3: the reference's third layer is the same layer on rows of 64, applied to a table whose view as chunks is
    the reference's second layer. -/
theorem ref_layer3 (x0 : (⟨Cert.ReferenceIdeal.S100000x64, .f32⟩ : BufTy).Contents (Elt Ideal)) (x1 : (⟨Cert.ReferenceIdeal.S50000x64, .f32⟩ : BufTy).Contents (Elt Ideal)) (x2 : (⟨Cert.ReferenceIdeal.S2x1000000, .i32⟩ : BufTy).Contents (Elt Ideal)) (x3 : (⟨Cert.ReferenceIdeal.S4x1000000, .f32⟩ : BufTy).Contents (Elt Ideal))
    (X : Cert.KernelIdeal.S150000x64.Idx → EReal) (hX : Cert.Spec.asChunks X = Cert.ReferenceIdeal.Read.val_main_v115 (F := Ideal) x0 x1 x2 x3) :
    Cert.Spec.asChunks (kLayer x2 x3 X) = Cert.ReferenceIdeal.Read.val_main_v170 (F := Ideal) x0 x1 x2 x3 := by
  refine (layer_through_chunks x2 x3 X _ hX).trans ?_
  unfold Cert.ReferenceIdeal.Read.val_main_v170 Cert.ReferenceIdeal.Read.val_main_v167 Cert.ReferenceIdeal.Read.val_main_v165 Cert.ReferenceIdeal.Read.val_main_v166 Cert.ReferenceIdeal.Read.val_main_v158
  rw [weights3_eq]
  rfl

set_option maxHeartbeats 400000 in
/-- The reference's result is three layers on rows of 64 applied to the concatenated table, seen through the chunks. -/
theorem ref_result (x0 : (⟨Cert.ReferenceIdeal.S100000x64, .f32⟩ : BufTy).Contents (Elt Ideal)) (x1 : (⟨Cert.ReferenceIdeal.S50000x64, .f32⟩ : BufTy).Contents (Elt Ideal)) (x2 : (⟨Cert.ReferenceIdeal.S2x1000000, .i32⟩ : BufTy).Contents (Elt Ideal)) (x3 : (⟨Cert.ReferenceIdeal.S4x1000000, .f32⟩ : BufTy).Contents (Elt Ideal)) :
    Cert.Spec.asChunks (kLayer x2 x3 (kLayer x2 x3 (kLayer x2 x3 (Cert.ReferenceIdeal.Read.val_main_v4 (F := Ideal) x0 x1))))
      = Cert.ReferenceIdeal.Read.val_main_v170 (F := Ideal) x0 x1 x2 x3 :=
  ref_layer3 x0 x1 x2 x3 _ (ref_layer2 x0 x1 x2 x3 _ (ref_layer1 x0 x1 x2 x3))

end Cert.RefLayers

end
-- ==== Proof.lean ====
/-
  The kernel and its reference compute the same three layers of a weighted graph propagation.

  Both start from the row and column lists of the edges and the [4, 1000000] array of edge intents. The weights are the
  softmax of each edge's four intents (the kernel transposes first and takes the softmax of each row in blocks of 4000
  rows on the grid; the reference takes it down the columns and transposes after — at the extended reals the same
  numbers, the reference's extra maximum with -∞ the identity). From the weights both compute, by the same host
  operations, each node's degree per intent, its inverse square root where positive, and each edge's normalisation: the
  product at its two endpoints. A layer gathers the table's rows at the row list, scales each chunk of sixteen columns of
  an edge's row by the edge's normalisation for that chunk, and adds the rows into a zero table at the column list. The
  kernel holds the table as [150000, 64] and scales on the grid; the reference holds it as [150000, 4, 16]: gathering
  and adding rows commute with seeing a row of 64 as four chunks of 16, the product is commutative, and every sum is an
  exact sum, so after three layers the kernel's table, reshaped, is the reference's. Nothing here needs the inputs finite.

  The pieces: the kernel's run read to its last buffer valuation (KernelRun), each launch's output array as one function
  of its operand arrays (Regions, Regions1–3, over the bodies' stored values in Bodies), the valuations read stage by
  stage (Fold, FoldLayers), the reference's softmax (RefSoftmax), rows read and added at an index and the layer law (RowsIdx,
  RowsLaw), and the reference's three layers (RefLayers).
-/
import proofs.«134008_j4887672782966_2_alg».proof.Defs
import proofs.«134008_j4887672782966_2_alg».proof.Proof.Gen.Kernel
import proofs.«134008_j4887672782966_2_alg».proof.Proof.Gen.Kernel.Skeleton
import proofs.«134008_j4887672782966_2_alg».proof.Proof.Gen.Kernel.Launch
import proofs.«134008_j4887672782966_2_alg».proof.Proof.Gen.Kernel.Points
import proofs.«134008_j4887672782966_2_alg».proof.Proof.Gen.Kernel.Frame
import proofs.«134008_j4887672782966_2_alg».proof.Proof.Gen.KernelIdeal
import proofs.«134008_j4887672782966_2_alg».proof.Proof.Gen.KernelIdeal.Skeleton
import proofs.«134008_j4887672782966_2_alg».proof.Proof.Gen.KernelIdeal.Launch
import proofs.«134008_j4887672782966_2_alg».proof.Proof.Gen.KernelIdeal.Points
import proofs.«134008_j4887672782966_2_alg».proof.Proof.Gen.KernelIdeal.Frame
import proofs.«134008_j4887672782966_2_alg».proof.Proof.Gen.ReferenceIdeal
import proofs.«134008_j4887672782966_2_alg».proof.Proof.Gen.ReferenceIdeal.Run
import proofs.«134008_j4887672782966_2_alg».proof.Proof.Gen.ReferenceIdeal.Read
import proofs.«134008_j4887672782966_2_alg».proof.Proof.Gen.Pre_finite_inputs
import proofs.«134008_j4887672782966_2_alg».proof.Proof.KernelRun
import proofs.«134008_j4887672782966_2_alg».proof.Proof.FoldLayers
import proofs.«134008_j4887672782966_2_alg».proof.Proof.RefSoftmax
import proofs.«134008_j4887672782966_2_alg».proof.Proof.RowsLaw
import proofs.«134008_j4887672782966_2_alg».proof.Proof.RefLayers
import Idealize.ShloMosaic.Adequacy
import Idealize.ShloMosaic.Init

set_option maxRecDepth 16384

noncomputable section

namespace Cert.Proof

open Idealize.ShloMosaic Idealize.ShloMosaic.TcCoe Idealize.SL.Sem

/-! ## The three frames -/

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-! ## The kernel's result is the reference's last stage of the kernel's arguments -/

open Cert.KernelIdeal Cert.KernelIdeal.Gen in
/-- At the end of the fold the result buffer holds three layers of the start table, reshaped: the reference's last
    stage, by the layer law applied three times. -/
theorem kernel_result (m : (ℓ : Loc nD τ sig) → Buf (Elt Ideal) ℓ) (ρ : Dev nD → PrngReg) (c : Dev nD) :
    W11 m ρ c (Proc.devRef .tc main_v70)
      = Cert.ReferenceIdeal.Read.val_main_v170 (F := Ideal) (m ((c : Thread nD τ).loc main_arg0)) (m ((c : Thread nD τ).loc main_arg1))
          (m ((c : Thread nD τ).loc main_arg2)) (m ((c : Thread nD τ).loc main_arg3)) := by
  rw [Cert.KernelIdeal.Fold.W11_v70 m ρ Cert.RefSoftmax.ref_softmax c, Cert.RowsLaw.asChunks_eq]
  exact Cert.RefLayers.ref_result _ _ _ _

/-! ## The value claim -/

/-- Both programs end with the reference's last stage of the (agreeing) arguments in their result buffers. -/
theorem algebraic : Cert.algebraic_KernelIdeal_ReferenceIdeal := by
  intro m ρ m' ρ' _ hagree
  refine ⟨fun c => Cert.ReferenceIdeal.Read.val_main_v170 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (kernel_result m ρ c), (h c).2⟩)
      (Cert.KernelIdeal.RunValue.run_result m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v170_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
